-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg0 main_cst_6
  let main_cst_7 : FVec F S_ .f32 := constant S_ .f32 0x00000000#32
  let main_v20 : FVec F S8192 .f32 := broadcastInDim S8192 ![] bcast_S_S8192 main_cst_7
  let main_v21 : IVec S8192 1 := cmpf .ogt main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  main_v23

def fn {F : FTy → Type} [FloatOps F] (main_arg0 : FVec F S8192x8192 .f32) (main_arg1 : FVec F S8192x256 .f32) (main_arg2 : FVec F S256x256 .f32) (main_arg3 : FVec F S256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_v13 main_v16
-- ==== Kernel.lean ====
abbrev S8192x8192 : Shape := ⟨2, ![8192, 8192]⟩
abbrev S8192x256 : Shape := ⟨2, ![8192, 256]⟩
abbrev S256x256 : Shape := ⟨2, ![256, 256]⟩
abbrev S256 : Shape := ⟨1, ![256]⟩
abbrev S8192x1 : Shape := ⟨2, ![8192, 1]⟩
abbrev S1024x4096 : Shape := ⟨2, ![1024, 4096]⟩
abbrev S1024x256 : Shape := ⟨2, ![1024, 256]⟩
abbrev S1024x1 : Shape := ⟨2, ![1024, 1]⟩
abbrev S1024 : Shape := ⟨1, ![1024]⟩
abbrev S1x256 : Shape := ⟨2, ![1, 256]⟩
abbrev S4096x256 : Shape := ⟨2, ![4096, 256]⟩

abbrev nBuf : Space → Nat
  | .hbm => 9
  | .vmem => 22
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x256, .f32⟩
  | .hbm, ⟨6, _⟩ => ⟨S256x256, .f32⟩
  | .hbm, ⟨7, _⟩ => ⟨S1x256, .f32⟩
  | .hbm, ⟨8, _⟩ => ⟨S8192x256, .f32⟩
  | .local _ .vmem, ⟨0, _⟩ => ⟨S1024x4096, .f32⟩
  | .local _ .vmem, ⟨1, _⟩ => ⟨S1024x4096, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x1, .f32⟩
  | .local _ .vmem, ⟨9, _⟩ => ⟨S1024x4096, .f32⟩
  | .local _ .vmem, ⟨10, _⟩ => ⟨S1024x4096, .f32⟩
  | .local _ .vmem, ⟨11, _⟩ => ⟨S4096x256, .f32⟩
  | .local _ .vmem, ⟨12, _⟩ => ⟨S4096x256, .f32⟩
  | .local _ .vmem, ⟨13, _⟩ => ⟨S1024x256, .f32⟩
  | .local _ .vmem, ⟨14, _⟩ => ⟨S1024x256, .f32⟩
  | .local _ .vmem, ⟨15, _⟩ => ⟨S1024x1, .f32⟩
  | .local _ .vmem, ⟨16, _⟩ => ⟨S1024x1, .f32⟩
  | .local _ .vmem, ⟨17, _⟩ => ⟨S256x256, .f32⟩
  | .local _ .vmem, ⟨18, _⟩ => ⟨S1x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  transposes_S256x256_S256x256_1_0 : S256x256.Transposes [1, 0] S256x256
  shapeCasts_S256_S1x256 : S256.ShapeCasts S1x256
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x4096_S4096x256_S1024x256_1_0_0_1_n_n_wf : DotDims.WF S1024x4096 S4096x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .f32 = 32 ∨ (Rect.block (s := S8192x8192) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .f32 = 32 ∨ (Rect.block (s := S8192x8192) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S8192x256.size a
  hwx1_1 : ∀ i : grid1.Coords, EltTy.bits .f32 = 32 ∨ (Rect.block (s := S8192x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S256x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The function both programs compute, index by index, on the extended reals.

  For an adjacency matrix g (8192 × 8192), node features h (8192 × 256), a weight matrix W (256 × 256, stored
  output-major) and a bias b (256):
    deg i      = Σ_j g[i,j]                                   the degree of node i
    dinv i     = (deg i)^(-1/2)                               its inverse square root
    agg i c    = h[i,c] + dinv i · Σ_j g[i,j] · (dinv j · h[j,c])   one step of normalised message passing
    out i o    = max (Σ_c agg i c · W[o,c] + b[o]) 0          the linear layer and the rectifier
  The products are written in the order both programs multiply in, so that no commutation is needed to meet them;
  the sums are whole sums over the contracted axis, which each program reaches by its own grouping.
-/
import Idealize.ShloMosaic.PureOps.Ideal
import Idealize.ShloMosaic.Lib.ValueIdx

noncomputable section

open Idealize.ShloMosaic Idealize.ShloMosaic.ValueIdx
open scoped BigOperators

namespace Cert.GcnSpec

/-- The adjacency matrix's, the features', the weights' and the bias's index types, by literal extents. -/
abbrev IdxG : Type := (⟨2, ![8192, 8192]⟩ : Shape).Idx
abbrev IdxH : Type := (⟨2, ![8192, 256]⟩ : Shape).Idx
abbrev IdxW : Type := (⟨2, ![256, 256]⟩ : Shape).Idx
abbrev IdxB : Type := (⟨1, ![256]⟩ : Shape).Idx

/-- The degree of node `i`: the sum of row `i` of the adjacency matrix. -/
def deg (g : IdxG → EReal) (i : Fin 8192) : EReal := ∑ j : Fin 8192, g (ix2 i j)

/-- The inverse square root of node `i`'s degree. -/
def dinv (g : IdxG → EReal) (i : Fin 8192) : EReal := Ideal.rsqrt (deg g i)

/-- One step of symmetrically normalised message passing with a self loop: feature `c` of node `i`. -/
def agg (g : IdxG → EReal) (h : IdxH → EReal) (i : Fin 8192) (c : Fin 256) : EReal :=
  h (ix2 i c) + dinv g i * ∑ j : Fin 8192, g (ix2 i j) * (dinv g j * h (ix2 j c))

/-- The linear layer on the aggregate, then the rectifier: output feature `o` of node `i`. -/
def out (g : IdxG → EReal) (h : IdxH → EReal) (W : IdxW → EReal) (b : IdxB → EReal) (i : Fin 8192) (o : Fin 256) : EReal :=
  max ((∑ c : Fin 256, agg g h i c * W (ix2 o c)) + b (ix1 o)) 0

/-- The whole result array. -/
def G (g : IdxG → EReal) (h : IdxH → EReal) (W : IdxW → EReal) (b : IdxB → EReal) : IdxH → EReal :=
  fun idx => out g h W b (idx 0) (idx 1)

theorem G_ix2 (g : IdxG → EReal) (h : IdxH → EReal) (W : IdxW → EReal) (b : IdxB → EReal) (i : Fin 8192) (o : Fin 256) :
    G g h W b (ix2 i o) = out g h W b i o := rfl

end Cert.GcnSpec

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«151426_j2224793059943_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.LibPosPre.lean ====
/-
  Reading a printed precondition's test "every entry is positive", at the ideal values.

  `jnp.all(x > 0)` prints as a reduction by `and`, over all axes, of the comparison of x with the zero constant spread over
  the array's shape; it holds when the reduction's one result is 1. A reduction by `and` that is 1 had a 1 at every entry,
  so at every entry the order's comparison says 0 < x. Stated for any shape and any reduced axes, in the form the test is
  printed in, beside the tests "finite" and "nonnegative".
-/
import Idealize.ShloMosaic.Lib.ReduceAll
import Idealize.ShloMosaic.Lib.Pipeline.Value
import Idealize.ShloMosaic.Lib.ValueIdx
import Idealize.ShloMosaic.PureOps.Ideal.Laws
import proofs.«151426_j2224793059943_2_alg».proof.Proof.LibFinitePre

noncomputable section

namespace Cert.LibPosPre

open Idealize.ShloMosaic Idealize.ShloMosaic.ValueIdx Cert.LibFinitePre

/-- x > 0 on the extended reals is the order's. -/
theorem pos_of_cmp (x : EReal) (h : Ideal.cmp .ogt x 0 = 1#1) : 0 < x :=
  of_decide_eq_true ((ofBool_eq_one _).1 h)

/-- A test "every entry > 0" that holds says every entry is positive. -/
theorem all_pos {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .ogt a (broadcastInDim s ![] hb (constant (F := Ideal) ⟨0, ![]⟩ .f32 0x00000000#32)))
      (constantI ⟨0, ![]⟩ 1 1#1) hr hu ix0 = 1#1) (i : s.Idx) : 0 < a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine pos_of_cmp (a i) ?_
  have h2 : Ideal.cmp .ogt (a i) (broadcastInDim s ![] hb (constant (F := Ideal) ⟨0, ![]⟩ .f32 0x00000000#32) i) = 1#1 := h
  rwa [hb'] at h2

end Cert.LibPosPre

end
-- ==== Proof.RefPre.lean ====
/-
  What the precondition says about the adjacency matrix: every row's degree is a positive real.

  The precondition is a conjunction of five tests. The first says every entry of the adjacency matrix has absolute value
  below +∞, that is, is a real number; a finite sum of reals is a real, so each row's degree is a real. The last test takes
  the row sums on the host — a host sum reads as its initial value, the zero word, plus the sum over the row — and says each
  is greater than zero. Together: the degree of every row is a positive real, which is where the power −1/2 and the
  reciprocal square root agree.
-/
import proofs.«151426_j2224793059943_2_alg».proof.Proof.Gen.Pre_finite_inputs
import proofs.«151426_j2224793059943_2_alg».proof.Proof.Spec
import proofs.«151426_j2224793059943_2_alg».proof.Proof.LibPosPre
import Idealize.ShloMosaic.PureOps.Ideal.Laws

noncomputable section

namespace Cert.RefSide

open Idealize.ShloMosaic Idealize.ShloMosaic.ValueIdx Cert.Pre_finite_inputs Cert.LibRealEntries
open scoped BigOperators

/-- The host's sum over axis 1, from the zero word, read at row i: the degree of row i. -/
theorem rowSum_apply (x0 : (⟨S8192x8192, .f32⟩ : BufTy).Contents (Elt Ideal)) (i : Fin 8192) :
    Host.reduceAdd (F := Ideal) x0 (constant (F := Ideal) S_ .f32 0x00000000#32) Facts.reducesTo_S8192x8192_S8192_d1 Facts.h_S_ (ix1 i)
      = Cert.GcnSpec.deg x0 i := by
  simp only [Host.reduceAdd, Ideal.hostReduceAdd_def]
  rw [Ideal.hostReduceAdd_single Facts.reducesTo_S8192x8192_S8192_d1 (by decide)]
  show Ideal.ofBits .f32 0x00000000#32 + _ = _
  rw [Ideal.ofBits_zero_f32, zero_add]
  unfold Cert.GcnSpec.deg
  refine Finset.sum_congr rfl fun k _ => ?_
  exact congrArg x0 (funext fun a => Fin.ext (by match a with | ⟨0, _⟩ => rfl | ⟨1, _⟩ => rfl))

/-- Under the precondition every row's degree is a positive real. -/
theorem pre_facts (x0 : (⟨S8192x8192, .f32⟩ : BufTy).Contents (Elt Ideal)) (x1 : (⟨S8192x256, .f32⟩ : BufTy).Contents (Elt Ideal))
    (x2 : (⟨S256x256, .f32⟩ : BufTy).Contents (Elt Ideal)) (x3 : (⟨S256, .f32⟩ : BufTy).Contents (Elt Ideal))
    (hpre : Cert.Pre_finite_inputs.fn (F := Ideal) x0 x1 x2 x3 = fun _ => 1#1) :
    ∀ i : Fin 8192, ∃ s : ℝ, 0 < s ∧ Cert.GcnSpec.deg x0 i = (s : EReal) := by
  have h0 := congrFun hpre ix0
  dsimp only [fn, fn_part1] at h0
  obtain ⟨h18, h22⟩ := IntOp.andi_eq_one.1 (show IntOp.andi _ _ = 1#1 from h0)
  obtain ⟨h13, -⟩ := IntOp.andi_eq_one.1 (show IntOp.andi _ _ = 1#1 from h18)
  obtain ⟨h8, -⟩ := IntOp.andi_eq_one.1 (show IntOp.andi _ _ = 1#1 from h13)
  obtain ⟨h3, -⟩ := IntOp.andi_eq_one.1 (show IntOp.andi _ _ = 1#1 from h8)
  have hreal : ∀ j, IsReal (x0 j) :=
    Cert.LibFinitePre.all_real x0 Facts.bcast_S_S8192x8192 Facts.reducesTo_S8192x8192_S_d0_1 Facts.h_S_ h3
  have hpos := Cert.LibPosPre.all_pos
    (Host.reduceAdd (F := Ideal) x0 (constant (F := Ideal) S_ .f32 0x00000000#32) Facts.reducesTo_S8192x8192_S8192_d1 Facts.h_S_)
    Facts.bcast_S_S8192 Facts.reducesTo_S8192_S_d0 Facts.h_S_ h22
  intro i
  have hp := hpos (ix1 i)
  rw [rowSum_apply] at hp
  obtain ⟨s, hs⟩ : IsReal (Cert.GcnSpec.deg x0 i) := IsReal.sum _ _ (fun j _ => hreal _)
  rw [hs] at hp
  exact ⟨s, EReal.coe_pos.1 hp, hs⟩

end Cert.RefSide

end
-- ==== Proof.RefLaw.lean ====
/-
  The inverse square root, spelt two ways.

  One program raises a row's degree to the power −1/2, the other takes the reciprocal of its square root. On a
  positive real s both are the same real number: s^(−1/2) = (s^(1/2))⁻¹ = (√s)⁻¹. (Off the positive reals the two
  differ on the extended reals — at 0 and below the power follows the real power function's conventions and the
  reciprocal root has its own corners — so the law is stated, and used, for positive reals only.)

  The exponent is printed as the single-precision word 0xBF000000: sign 1, exponent field 126, fraction 0, that is
  −(2^23) · 2^(126 − 127 − 23) = −1/2.
-/
import Idealize.ShloMosaic.PureOps.Ideal
import Idealize.ShloMosaic.PureOps.Ideal.Laws

noncomputable section

namespace Cert.RefSide

open Idealize.ShloMosaic

/-- The single-precision word 0xBF000000 is the real number −1/2. -/
theorem neg_half_word : Ideal.ofBits .f32 0xBF000000#32 = ((-(1 / 2) : ℝ) : EReal) := by
  simp [Ideal.ofBits, Ideal.ieee, -EReal.coe_mul, -EReal.coe_neg]; norm_num

/-- On the reals: s^(−1/2) is the reciprocal of the square root of s, for s ≥ 0. -/
theorem rpow_neg_half (s : ℝ) (hs : 0 ≤ s) : s ^ (-(1 / 2) : ℝ) = (Real.sqrt s)⁻¹ := by
  rw [Real.rpow_neg hs, Real.sqrt_eq_rpow]

/-- The power with exponent −1/2 and the reciprocal square root agree at a positive real. -/
theorem pow_neg_half_eq_rsqrt (s : ℝ) (hs : 0 < s) :
    Ideal.pow (s : EReal) (Ideal.ofBits .f32 0xBF000000#32) = Ideal.rsqrt (s : EReal) := by
  rw [neg_half_word, Ideal.pow_coe_coe, Ideal.rsqrt_coe, if_neg (not_lt.2 hs.le), if_neg hs.ne']
  exact congrArg (fun t : ℝ => (t : EReal)) (rpow_neg_half s hs.le)

end Cert.RefSide

end
-- ==== Proof.RefValue.lean ====
/-
  The host program computes the specification, index by index.

  The host program is read one operation at a time, innermost first, always at an index given by its coordinates:
    the row sums from the zero word                       are the degrees, deg i;
    their power with the exponent word −1/2               is dinv i — here, and only here, the degrees must be
                                                          positive reals, where the power and the reciprocal root agree;
    the two column broadcasts of that vector              read it back at the row coordinate;
    the product with the features                         is dinv j · h[j,c];
    the contraction of the adjacency matrix with it       is Σ_j g[i,j] · (dinv j · h[j,c]);
    the product with the broadcast column and the sum with the features   is agg i c;
    the contraction with the transposed weights           is Σ_c agg i c · W[o,c]  (the transpose reads W at (o, c));
    the sum with the bias broadcast along the rows        adds b[o];
    the maximum with the broadcast zero word              is the rectifier.
  Each contraction's operand indices at output (i, o) and contraction coordinate k are (i, k) and (k, o).
-/
import proofs.«151426_j2224793059943_2_alg».proof.Proof.Gen.ReferenceIdeal.Read
import proofs.«151426_j2224793059943_2_alg».proof.Proof.Spec
import proofs.«151426_j2224793059943_2_alg».proof.Proof.RefLaw

noncomputable section

namespace Cert.RefSide

open Cert.ReferenceIdeal Cert.ReferenceIdeal.Read Cert.GcnSpec Idealize.ShloMosaic Idealize.ShloMosaic.ValueIdx
open scoped BigOperators

/-- The row sums from the zero word are the degrees. -/
theorem deg_read (x0 : (⟨S8192x8192, .f32⟩ : BufTy).Contents (Elt Ideal)) (i : Fin 8192) :
    val_main_v0 (F := Ideal) x0 (ix1 i) = deg x0 i := by
  rw [val_main_v0_apply, val_main_cst_apply, Ideal.ofBits_def, Ideal.ofBits_zero_f32, zero_add]
  unfold deg
  refine Finset.sum_congr rfl fun k _ => congrArg x0 ?_
  exact funext fun a => by match a with | ⟨0, _⟩ => rfl | ⟨1, _⟩ => rfl

/-- The broadcast exponent is the word −1/2 at every row. -/
theorem exponent_read (i : Fin 8192) :
    val_main_v1 (F := Ideal) (ix1 i) = Ideal.ofBits .f32 0xBF000000#32 := by
  rw [val_main_v1_apply, val_main_cst_0_apply, Ideal.ofBits_def]

/-- The degrees to the power −1/2 are their reciprocal square roots, the degrees being positive reals. -/
theorem dinv_read (x0 : (⟨S8192x8192, .f32⟩ : BufTy).Contents (Elt Ideal)) (hpos : ∀ i : Fin 8192, ∃ s : ℝ, 0 < s ∧ Cert.GcnSpec.deg x0 i = (s : EReal)) (i : Fin 8192) :
    val_main_v2 (F := Ideal) x0 (ix1 i) = dinv x0 i := by
  obtain ⟨s, hs, hdeg⟩ := hpos i
  rw [val_main_v2_apply, deg_read, exponent_read, Ideal.hostPowf_def]
  unfold dinv
  rw [hdeg]
  exact pow_neg_half_eq_rsqrt s hs

/-- The column broadcast that scales the features reads the vector at the row coordinate. -/
theorem col_read_in (x0 : (⟨S8192x8192, .f32⟩ : BufTy).Contents (Elt Ideal)) (j : Fin 8192) (c : Fin 256) :
    val_main_v5 (F := Ideal) x0 (ix2 j c) = val_main_v2 (F := Ideal) x0 (ix1 j) := by
  rw [val_main_v5_apply, val_main_v4_apply]
  exact congrArg (val_main_v2 (F := Ideal) x0) (funext fun a => by match a with | ⟨0, _⟩ => rfl)

/-- The column broadcast that scales the propagated features reads the vector at the row coordinate. -/
theorem col_read_out (x0 : (⟨S8192x8192, .f32⟩ : BufTy).Contents (Elt Ideal)) (i : Fin 8192) (c : Fin 256) :
    val_main_v8 (F := Ideal) x0 (ix2 i c) = val_main_v2 (F := Ideal) x0 (ix1 i) := by
  rw [val_main_v8_apply, val_main_v3_apply]
  exact congrArg (val_main_v2 (F := Ideal) x0) (funext fun a => by match a with | ⟨0, _⟩ => rfl)

/-- The scaled features: dinv j · h[j,c]. -/
theorem scaled_read (x0 : (⟨S8192x8192, .f32⟩ : BufTy).Contents (Elt Ideal)) (x1 : (⟨S8192x256, .f32⟩ : BufTy).Contents (Elt Ideal)) (hpos : ∀ i : Fin 8192, ∃ s : ℝ, 0 < s ∧ Cert.GcnSpec.deg x0 i = (s : EReal)) (j : Fin 8192) (c : Fin 256) :
    val_main_v6 (F := Ideal) x0 x1 (ix2 j c) = dinv x0 j * x1 (ix2 j c) := by
  rw [val_main_v6_apply, col_read_in, dinv_read x0 hpos, Ideal.mulf_def]

/-- The propagated features: Σ_j g[i,j] · (dinv j · h[j,c]). -/
theorem prop_read (x0 : (⟨S8192x8192, .f32⟩ : BufTy).Contents (Elt Ideal)) (x1 : (⟨S8192x256, .f32⟩ : BufTy).Contents (Elt Ideal)) (hpos : ∀ i : Fin 8192, ∃ s : ℝ, 0 < s ∧ Cert.GcnSpec.deg x0 i = (s : EReal)) (i : Fin 8192) (c : Fin 256) :
    val_main_v7 (F := Ideal) x0 x1 (ix2 i c) = ∑ j : Fin 8192, x0 (ix2 i j) * (dinv x0 j * x1 (ix2 j c)) := by
  rw [val_main_v7_apply]
  refine Finset.sum_congr rfl fun k _ => ?_
  have el : lidx_main_v7 (ix2 i c) k = ix2 i k := funext fun a => by match a with | ⟨0, _⟩ => rfl | ⟨1, _⟩ => rfl
  have er : ridx_main_v7 (ix2 i c) k = ix2 k c := funext fun a => by match a with | ⟨0, _⟩ => rfl | ⟨1, _⟩ => rfl
  rw [el, er, scaled_read x0 x1 hpos]

/-- The aggregate: h[i,c] + dinv i · Σ_j g[i,j] · (dinv j · h[j,c]). -/
theorem agg_read (x0 : (⟨S8192x8192, .f32⟩ : BufTy).Contents (Elt Ideal)) (x1 : (⟨S8192x256, .f32⟩ : BufTy).Contents (Elt Ideal)) (hpos : ∀ i : Fin 8192, ∃ s : ℝ, 0 < s ∧ Cert.GcnSpec.deg x0 i = (s : EReal)) (i : Fin 8192) (c : Fin 256) :
    val_main_v10 (F := Ideal) x0 x1 (ix2 i c) = agg x0 x1 i c := by
  rw [val_main_v10_apply, val_main_v9_apply, col_read_out, dinv_read x0 hpos, prop_read x0 x1 hpos, Ideal.mulf_def,
    Ideal.addf_def]
  rfl

/-- The transposed weights at (k, o) are the weights at (o, k). -/
theorem weight_read (x2 : (⟨S256x256, .f32⟩ : BufTy).Contents (Elt Ideal)) (k o : Fin 256) :
    val_main_v11 (F := Ideal) x2 (ix2 k o) = x2 (ix2 o k) := by
  rw [val_main_v11_apply]
  exact congrArg x2 (funext fun a => by match a with | ⟨0, _⟩ => rfl | ⟨1, _⟩ => rfl)

/-- The bias broadcast along the rows reads the bias at the column coordinate. -/
theorem bias_read (x3 : (⟨S256, .f32⟩ : BufTy).Contents (Elt Ideal)) (i : Fin 8192) (o : Fin 256) :
    val_main_v14 (F := Ideal) x3 (ix2 i o) = x3 (ix1 o) := by
  rw [val_main_v14_apply, val_main_v13_apply]
  exact congrArg x3 (funext fun a => by match a with | ⟨0, _⟩ => rfl)

/-- The rectifier's broadcast zero word is zero at every index. -/
theorem zero_read (i : Fin 8192) (o : Fin 256) :
    val_main_call0_v0 (F := Ideal) (ix2 i o) = 0 := by
  rw [val_main_call0_v0_apply, val_main_call0_cst_apply, Ideal.ofBits_def, Ideal.ofBits_zero_f32]

/-- The linear layer: Σ_c agg i c · W[o,c]. -/
theorem linear_read (x0 : (⟨S8192x8192, .f32⟩ : BufTy).Contents (Elt Ideal)) (x1 : (⟨S8192x256, .f32⟩ : BufTy).Contents (Elt Ideal)) (x2 : (⟨S256x256, .f32⟩ : BufTy).Contents (Elt Ideal)) (hpos : ∀ i : Fin 8192, ∃ s : ℝ, 0 < s ∧ Cert.GcnSpec.deg x0 i = (s : EReal)) (i : Fin 8192) (o : Fin 256) :
    val_main_v12 (F := Ideal) x0 x1 x2 (ix2 i o) = ∑ c : Fin 256, agg x0 x1 i c * x2 (ix2 o c) := by
  rw [val_main_v12_apply]
  refine Finset.sum_congr rfl fun k _ => ?_
  have el : lidx_main_v12 (ix2 i o) k = ix2 i k := funext fun a => by match a with | ⟨0, _⟩ => rfl | ⟨1, _⟩ => rfl
  have er : ridx_main_v12 (ix2 i o) k = ix2 k o := funext fun a => by match a with | ⟨0, _⟩ => rfl | ⟨1, _⟩ => rfl
  rw [el, er, agg_read x0 x1 hpos, weight_read]

/-- The host program's result is the specification, the degrees being positive reals. -/
theorem ref_eq_G (x0 : (⟨S8192x8192, .f32⟩ : BufTy).Contents (Elt Ideal)) (x1 : (⟨S8192x256, .f32⟩ : BufTy).Contents (Elt Ideal)) (x2 : (⟨S256x256, .f32⟩ : BufTy).Contents (Elt Ideal)) (x3 : (⟨S256, .f32⟩ : BufTy).Contents (Elt Ideal)) (hpos : ∀ i : Fin 8192, ∃ s : ℝ, 0 < s ∧ Cert.GcnSpec.deg x0 i = (s : EReal)) :
    Cert.ReferenceIdeal.Read.val_main_v16 (F := Ideal) x0 x1 x2 x3 = Cert.GcnSpec.G x0 x1 x2 x3 := by
  funext idx
  obtain ⟨i, o, rfl⟩ : ∃ (i : Fin 8192) (o : Fin 256), idx = ix2 i o := ⟨idx 0, idx 1, eq_ix2 idx⟩
  rw [G_ix2, val_main_v16_apply, val_main_v15_apply, linear_read x0 x1 x2 hpos, bias_read, zero_read, Ideal.maximumf_def,
    Ideal.addf_def]
  rfl

end Cert.RefSide

end
-- ==== Proof.KIData.lean ====
/-
  The proof data of the idealized kernel program's two pipelined regions, and the buffer contents at each boundary of its
  main function. Everything here is a definition or its projection; the bodies' runs and the launch are in the modules
  that import this one.
-/
import proofs.«151426_j2224793059943_2_alg».proof.Proof.Gen.KernelIdeal.Launch
import proofs.«151426_j2224793059943_2_alg».proof.Proof.Gen.KernelIdeal.Skeleton
import proofs.«151426_j2224793059943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The proof data of the two kernel regions, stated at the contents `V` the region is entered from

Both kernels walk a grid of 8 row blocks × 2 column blocks, the column block fastest: point `t` has row block `t / 2`
and column block `t % 2`. At an even point the body resets its accumulator and adds the first column block's
contribution; at an odd point it adds the second one and finishes the row block. So the accumulator after an even
point is one contribution over zero, after an odd point two, and nothing older is ever read. -/

section Regions

variable (V : (c : Dev nD) → (b : Ref sig .tc) → Buf (Elt F) ((c : Thread nD τ).loc b))

/-! ## Region 0: row sums, their inverse square roots, and the scaled features -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point before `t` (the first point's is itself: it is only consulted at odd points). -/
def prev0 (t : Fin cfg0.N) : Fin cfg0.N := ⟨t.val - 1, Nat.lt_of_le_of_lt (Nat.sub_le _ _) t.isLt⟩

/-- The row-sum accumulator after the body at point `t`: the partial row sums of the adjacency blocks seen so far in
    this row block, over zero. -/
def acc0 (c : Dev nD) (t : Fin cfg0.N) : Vec F S1024x1 .f32 :=
  if t.val % 2 = 0 then k0_pay2 (k0_pay1 (F := F)) (iblk0 V c 0 t)
  else k0_pay2 (k0_pay2 (k0_pay1 (F := F)) (iblk0 V c 0 (prev0 t))) (iblk0 V c 0 t)

/-- What the body leaves in the inverse-square-root window's buffer (consulted at odd points only: the window is idle at
    the even ones). -/
def dOut0 (c : Dev nD) (t : Fin cfg0.N) : Vec F S1024x1 .f32 := k0_pay3 (acc0 V c t)

/-- What the body leaves in the scaled-features window's buffer (consulted at odd points only). -/
def dhOut0 (c : Dev nD) (t : Fin cfg0.N) : Vec F S1024x256 .f32 := k0_pay4 (acc0 V c t) (iblk0 V c 1 t)

/-- The accumulator, a scoped buffer of the kernel's own. -/
abbrev scM0 : Memref sig .tc .vmem S1024x1 .f32 := Memref.whole cc0_scratch0

/-- The region's invariant before position `n`: at the start what the launch hands over; afterwards the accumulator at
    what the point before left in it, beside whatever turns an accumulator at any contents back into what the launch
    handed over. -/
def Phi0 (c : Dev nD) : (n : ℕ) → n ≤ cfg0.N → sProp 𝕄
  | 0, _ => Pipeline.ΦA spec0 c
  | n + 1, hn => iprop(owns (c : Thread nD τ) scM0 fullShare (acc0 V c ⟨n, hn⟩)
      ∗ ((∃ d, owns (c : Thread nD τ) scM0 fullShare d) -∗ Pipeline.ΦA spec0 c))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => dOut0 V c t
    | ⟨3, _⟩ => dhOut0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = dOut0 V c t := by dsimp only [dat0]
theorem after0_3 (c : Dev nD) (t : Fin cfg0.N) : (dat0 V c).after 3 t = dhOut0 V c t := by dsimp only [dat0]

/-! ## Region 1: the aggregation, the linear layer and the rectifier -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t`. -/
def prev1 (t : Fin cfg1.N) : Fin cfg1.N := ⟨t.val - 1, Nat.lt_of_le_of_lt (Nat.sub_le _ _) t.isLt⟩

/-- The product accumulator after the body at point `t`: the adjacency blocks seen so far in this row block times the
    matching blocks of scaled features, over zero. -/
def acc1 (c : Dev nD) (t : Fin cfg1.N) : Vec F S1024x256 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

/-- What the body leaves in the result window's buffer (consulted at odd points only). -/
def out1 (c : Dev nD) (t : Fin cfg1.N) : Vec F S1024x256 .f32 :=
  k1_pay3 (iblk1 V c 2 t) (iblk1 V c 3 t) (acc1 V c t) (iblk1 V c 4 t) (iblk1 V c 5 t)

/-- The accumulator, a scoped buffer of the kernel's own. -/
abbrev scM1 : Memref sig .tc .vmem S1024x256 .f32 := Memref.whole cc1_scratch0

/-- The region's invariant before position `n` (as region 0's). -/
def Phi1 (c : Dev nD) : (n : ℕ) → n ≤ cfg1.N → sProp 𝕄
  | 0, _ => Pipeline.ΦA spec1 c
  | n + 1, hn => iprop(owns (c : Thread nD τ) scM1 fullShare (acc1 V c ⟨n, hn⟩)
      ∗ ((∃ d, owns (c : Thread nD τ) scM1 fullShare d) -∗ Pipeline.ΦA spec1 c))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

end Regions

/-! # The buffer contents at each boundary of @main: region 0, the two host operations, region 1 -/

variable (m : (ℓ : Loc nD τ sig) → Buf (Elt F) ℓ) (ρ : Dev nD → PrngReg)

/-- Core `c`'s buffers at launch (region 0's entry: no host operation comes before it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations (region 1's entry): the weights transposed, the bias as a row. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

end Cert.KernelIdeal.Fr
end
-- ==== Proof.KIPrelude.lean ====
/-
  Two facts about accesses through the whole shape of a buffer, used by both regions' bodies.
-/
import proofs.«151426_j2224793059943_2_alg».proof.Proof.Gen.KernelIdeal.Launch
import proofs.«151426_j2224793059943_2_alg».proof.Proof.Gen.KernelIdeal.Skeleton
import proofs.«151426_j2224793059943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KIData

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Two small facts about whole-shape accesses -/

/-- The zero offsets of a rank-2 access. -/
theorem hz2 : (![0, 0] : Fin 2 → ℕ) = fun _ => 0 := by funext a; fin_cases a <;> rfl

/-- What a buffer reads as after a list of stores whose LAST one is a store of the whole shape: that store's payload. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert.KernelIdeal.Fr
end
-- ==== Proof.KIBody0.lean ====
/-
  Region 0's body obligation: at every grid point the row-sum kernel, called on the pipeline's staging buffers holding the
  point's input blocks, runs to the end and leaves the buffers and its accumulator at what the proof data say.
-/
import proofs.«151426_j2224793059943_2_alg».proof.Proof.Gen.KernelIdeal.Launch
import proofs.«151426_j2224793059943_2_alg».proof.Proof.Gen.KernelIdeal.Skeleton
import proofs.«151426_j2224793059943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KIData
import proofs.«151426_j2224793059943_2_alg».proof.Proof.KIPrelude

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0's body at every grid point -/

/-! ## The body's two branch conditions, decided over the grid -/

/-- "this is the row block's first column block": the accumulator is reset. -/
abbrev cond0_0 (i : grid0.Coords) : Prop := (Scalar.cmpi .ne (Scalar.extui (Scalar.cmpi .eq (BitVec.ofNat 32 (i 1).val) 0#32)) 0#32) = 1#1
/-- "this is the row block's last column block": the outputs are stored. -/
abbrev cond0_1 (i : grid0.Coords) : Prop := k0_cond2 i = 1#1
theorem hcond0_0 : ∀ t : Fin cfg0.N, cond0_0 (grid0.coords t) ↔ t.val % 2 = 0 :=
  (by decide +kernel : ∀ t : Fin grid0.N, cond0_0 (grid0.coords t) ↔ t.val % 2 = 0)
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, t.val % 2 = 0 → cfg0.idle 2 (grid0.coords t) = true := by decide +kernel
theorem noFlush0_2_A : ∀ t : Fin cfg0.N, t.val % 2 = 0 → (cfg0.win 2).flush t = false := by decide +kernel
theorem liveAt0_2_B : ∀ t : Fin cfg0.N, ¬t.val % 2 = 0 → cfg0.idle 2 (grid0.coords t) = false := by decide +kernel
theorem idleAt0_3_A : ∀ t : Fin cfg0.N, t.val % 2 = 0 → cfg0.idle 3 (grid0.coords t) = true := by decide +kernel
theorem noFlush0_3_A : ∀ t : Fin cfg0.N, t.val % 2 = 0 → (cfg0.win 3).flush t = false := by decide +kernel
theorem liveAt0_3_B : ∀ t : Fin cfg0.N, ¬t.val % 2 = 0 → cfg0.idle 3 (grid0.coords t) = false := by decide +kernel

/-! ## The body's triple, per case -/

set_option maxHeartbeats 1000000 in
/-- At a row block's first column block the body only reads the adjacency block and leaves the accumulator, whatever it
    held, at the block's row sums added to zero; it touches no other buffer. -/
theorem run0_A (c : Dev nD) (i : grid0.Coords)
    (arg2 : Memref sig .tc .vmem S1024x4096 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x256 .f32) (harg5 : arg5.IsWhole)
    (arg6 : Memref sig .tc .vmem S1024x1 .f32) (harg6 : arg6.IsWhole) (hc0 : cond0_0 i) (hc1 : ¬cond0_1 i)
    (x0 : Vec F S1024x4096 .f32) (E : Set ℕ) (K : PUnit → sProp 𝕄) :
    iprop(owns (c : Thread nD τ) arg2 fullShare x0 ∗ (∃ d, owns (c : Thread nD τ) arg6 fullShare d)
        ∗ (iprop(owns (c : Thread nD τ) arg2 fullShare x0 ∗ owns (c : Thread nD τ) arg6 fullShare (k0_pay2 (k0_pay1 (F := F)) x0)) -∗ K ⟨⟩))
      ⊢ wp frame (wpE (defs₀ (F := F)) Variants.none c none) E (cc0_rowsum_kernel i arg2 harg2 arg3 harg3 arg4 harg4 arg5 harg5 arg6 harg6) K := by
  simp only [cc0_rowsum_kernel_eq_skeleton]; unfold cc0_rowsum_kernel_skel
  unfold owns
  iintro ⟨⟨%f0, %hf0, H0⟩, ⟨%d6, %f6, %hf6, H6⟩, Hk⟩
  obtain rfl := harg2.eq_unread hf0; obtain rfl := harg6.eq_unread hf6
  sl_exec (disch := first | exact hc0 | exact hc1)
  sl_step
  iapply Hk
  isplitl [H0]
  · iexists _; isplitr; · ipureintro; exact harg2.read_unread _
    iexact H0
  iexists _; isplitr
  swap; · iexact H6
  ipureintro
  rw [read_writes_whole _ _ hz2]
  sl_unfold_run_names
  simp only [View.readCov_unit_zero (S := S1024x1) _ hz2, View.readAt_eq_ld, harg2.read_unread, View.ld_unit_zero (S := S1024x4096) hz2]

set_option maxHeartbeats 1000000 in
/-- At a row block's last column block the body adds the block's row sums to the accumulator's contents `xs`, and from the
    total `s` stores its inverse square root into the first output buffer and that, spread over the columns, times the feature
    block into the second; the two input blocks are only read. -/
theorem run0_B (c : Dev nD) (i : grid0.Coords)
    (arg2 : Memref sig .tc .vmem S1024x4096 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x256 .f32) (harg5 : arg5.IsWhole)
    (arg6 : Memref sig .tc .vmem S1024x1 .f32) (harg6 : arg6.IsWhole) (hc0 : ¬cond0_0 i) (hc1 : cond0_1 i)
    (x0 : Vec F S1024x4096 .f32) (x1 : Vec F S1024x256 .f32) (xs : Vec F S1024x1 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare (k0_pay3 (k0_pay2 xs x0))
            ∗ owns (c : Thread nD τ) arg5 fullShare (k0_pay4 (k0_pay2 xs x0) x1)
            ∗ owns (c : Thread nD τ) arg6 fullShare (k0_pay2 xs x0)) -∗ K ⟨⟩))
      ⊢ wp frame (wpE (defs₀ (F := F)) Variants.none c none) E (cc0_rowsum_kernel i arg2 harg2 arg3 harg3 arg4 harg4 arg5 harg5 arg6 harg6) K := by
  simp only [cc0_rowsum_kernel_eq_skeleton]; unfold cc0_rowsum_kernel_skel
  unfold owns
  iintro ⟨⟨%f0, %hf0, H0⟩, ⟨%f1, %hf1, H1⟩, ⟨%d4, %f4, %hf4, H4⟩, ⟨%d5, %f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  have e6 : k0_pay2 (F := F) (View.ld xs (Rect.unit (s := S1024x1) ![0, 0] S1024x1.size inb_S1024x1_S1024x1_0_0))
      (View.ld x0 (Rect.unit (s := S1024x4096) ![0, 0] S1024x4096.size inb_S1024x4096_S1024x4096_0_0)) = k0_pay2 xs x0 := by
    rw [View.ld_unit_zero (S := S1024x1) hz2, View.ld_unit_zero (S := S1024x4096) hz2]
  isplitl [H4]
  · iexists _; isplitr
    swap; · iexact H4
    ipureintro
    sl_unfold_run_names
    rw [read_writes_whole _ _ hz2]
    simp only [View.readCov_unit_zero (S := S1024x1) _ hz2, View.readAt_eq_ld, harg2.read_unread, harg3.read_unread, harg6.read_unread, e6]
  isplitl [H5]
  · iexists _; isplitr
    swap; · iexact H5
    ipureintro
    sl_unfold_run_names
    rw [read_writes_whole _ _ hz2]
    simp only [View.readCov_unit_zero (S := S1024x1) _ hz2, View.readAt_eq_ld, harg2.read_unread, harg3.read_unread, harg6.read_unread, e6,
      View.ld_unit_zero (S := S1024x256) hz2]
  iexists _; isplitr
  swap; · iexact H6
  ipureintro
  sl_unfold_run_names
  rw [read_writes_whole _ _ hz2]
  simp only [View.readAt_eq_ld, harg2.read_unread, harg6.read_unread, e6]

section Regions

variable (V : (c : Dev nD) → (b : Ref sig .tc) → Buf (Elt F) ((c : Thread nD τ).loc b))

/-! ## The accumulator and the invariant, case by case -/

theorem acc0_even (c : Dev nD) (t : Fin cfg0.N) (h : t.val % 2 = 0) :
    acc0 V c t = k0_pay2 (k0_pay1 (F := F)) (iblk0 V c 0 t) := by unfold acc0; rw [if_pos h]
theorem acc0_odd (c : Dev nD) (t : Fin cfg0.N) (h : ¬t.val % 2 = 0) :
    acc0 V c t = k0_pay2 (k0_pay2 (k0_pay1 (F := F)) (iblk0 V c 0 (prev0 t))) (iblk0 V c 0 t) := by unfold acc0; rw [if_neg h]

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (acc0 V c ⟨n, hn⟩)
      ∗ ((∃ d, owns (c : Thread nD τ) scM0 fullShare d) -∗ Pipeline.ΦA spec0 c)) := rfl
theorem Phi0_pos (c : Dev nD) (n : ℕ) (h : n ≤ cfg0.N) (hz : n ≠ 0) :
    Phi0 V c n h = iprop(owns (c : Thread nD τ) scM0 fullShare (acc0 V c ⟨n - 1, by omega⟩)
      ∗ ((∃ d, owns (c : Thread nD τ) scM0 fullShare d) -∗ Pipeline.ΦA spec0 c)) := by
  cases n with
  | zero => exact absurd rfl hz
  | succ n => rfl
theorem Phi0_castSucc (c : Dev nD) (t : Fin cfg0.N) :
    (dat0 V c).Φ t.castSucc = Phi0 V c t.val (Nat.le_of_lt t.isLt) := by
  dsimp only [dat0]; simp only [Fin.coe_castSucc]

/-- What the launch hands over holds the accumulator at some contents, and gives itself back for it. -/
theorem PhiA0_split (c : Dev nD) :
    (Pipeline.ΦA spec0 c : sProp 𝕄) ⊢ iprop((∃ d, owns (c : Thread nD τ) scM0 fullShare d)
      ∗ ((∃ d, owns (c : Thread nD τ) scM0 fullShare d) -∗ Pipeline.ΦA spec0 c)) := by
  unfold Pipeline.ΦA; rw [scopedRest0_eq]
  simp only [scM0, owns_whole]
  iintro ⟨⟨HA, HT⟩, Hp⟩
  isplitl [HA]; · iexact HA
  iintro HA'
  isplitl [HA' HT]
  · isplitl [HA']; · iexact HA'
    iexact HT
  iexact Hp

/-! ## Each input's staging buffer holds its block at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. At an even point it resets the accumulator and adds the block's row sums, leaving the two
    output windows as it found them; at an odd point it adds the block's row sums to what the point before left and
    stores both outputs from the total. The accumulator is lent by the invariant and returned at its new contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 16 := lt_of_lt_of_eq t.isLt (show cfg0.N = 16 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2_A t h0) (noFlush0_2_A t h0),
      Dat.leavesExact_idle (dat0 V c) 3 t (idleAt0_3_A t h0) (noFlush0_3_A t h0)]
    rw [show acc0 V c ⟨t.val, t.isLt⟩ = k0_pay2 (k0_pay1 (F := F)) (iblk0 V c 0 t) from acc0_even V c t h0]
    by_cases hz : t.val = 0
    · rw [Phi0_castSucc V c t, Phi0_zero V c _ _ hz]
      iintro ⟨HΦ, Ho, ⟨%d0, H0⟩, ⟨%d1, H1⟩, H2, H3⟩
      ihave HS := (PhiA0_split c) $$ HΦ
      icases HS with ⟨HS, HW⟩
      iapply (run0_A c (grid0.coords t) _ _ _ _ _ _ _ _ _ _ hc0 hc1 (iblk0 V c 0 t) Set.univ _)
      isplitl [H0]; · iexact H0
      isplitl [HS]; · iexact HS
      iintro ⟨H0, HS⟩
      isplitl [HS HW]
      · isplitl [HS]; · iexact HS
        iexact HW
      isplitl [Ho]; · iexact Ho
      isplitl [H0]; · iexact H0
      isplitl [H1]; · iexact H1
      isplitl [H2]; · iexact H2
      iexact H3
    · rw [Phi0_castSucc V c t, Phi0_pos V c _ _ hz]
      iintro ⟨⟨HS, HW⟩, Ho, ⟨%d0, H0⟩, ⟨%d1, H1⟩, H2, H3⟩
      iapply (run0_A c (grid0.coords t) _ _ _ _ _ _ _ _ _ _ hc0 hc1 (iblk0 V c 0 t) Set.univ _)
      isplitl [H0]; · iexact H0
      isplitl [HS]; · iexists _; iexact HS
      iintro ⟨H0, HS⟩
      isplitl [HS HW]
      · isplitl [HS]; · iexact HS
        iexact HW
      isplitl [Ho]; · iexact Ho
      isplitl [H0]; · iexact H0
      isplitl [H1]; · iexact H1
      isplitl [H2]; · iexact H2
      iexact H3
  · have hc0 : ¬cond0_0 (grid0.coords t) := fun h => h0 ((hcond0_0 t).mp h)
    have hc1 : cond0_1 (grid0.coords t) := (hcond0_1 t).mpr (by omega)
    have hz : t.val ≠ 0 := fun e => h0 (by rw [e])
    rw [show (dat0 V c).leavesExact 2 t = owns (c : Thread nD τ) (st0_2 t) fullShare ((dat0 V c).after 2 t) from by
      unfold Dat.leavesExact; rw [liveAt0_2_B t h0], after0_2]
    rw [show (dat0 V c).leavesExact 3 t = owns (c : Thread nD τ) (st0_3 t) fullShare ((dat0 V c).after 3 t) from by
      unfold Dat.leavesExact; rw [liveAt0_3_B t h0], after0_3]
    unfold dOut0 dhOut0
    rw [show acc0 V c ⟨t.val, t.isLt⟩ = acc0 V c t from rfl, acc0_odd V c t h0]
    rw [Phi0_castSucc V c t, Phi0_pos V c _ _ hz]
    rw [show acc0 V c ⟨t.val - 1, by omega⟩ = k0_pay2 (k0_pay1 (F := F)) (iblk0 V c 0 (prev0 t)) from
      acc0_even V c (prev0 t) (by show (t.val - 1) % 2 = 0; omega)]
    iintro ⟨⟨HS, HW⟩, Ho, ⟨%d0, H0⟩, ⟨%d1, H1⟩, ⟨%d2, H2⟩, ⟨%d3, H3⟩⟩
    iapply (run0_B c (grid0.coords t) _ _ _ _ _ _ _ _ _ _ hc0 hc1 (iblk0 V c 0 t) (iblk0 V c 1 t) _ Set.univ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS HW]
    · isplitl [HS]; · iexact HS
      iexact HW
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 16 := N_0; omega)]
  iintro ⟨HS, HW⟩
  iapply HW
  iexists _; iexact HS

end Regions

end Cert.KernelIdeal.Fr
end
-- ==== Proof.KIBody1.lean ====
/-
  Region 1's body obligation: at every grid point the aggregation kernel, called on the pipeline's staging buffers holding the
  point's input blocks, runs to the end and leaves the buffers and its accumulator at what the proof data say.
-/
import proofs.«151426_j2224793059943_2_alg».proof.Proof.Gen.KernelIdeal.Launch
import proofs.«151426_j2224793059943_2_alg».proof.Proof.Gen.KernelIdeal.Skeleton
import proofs.«151426_j2224793059943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KIData
import proofs.«151426_j2224793059943_2_alg».proof.Proof.KIPrelude

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1's body at every grid point -/

/-! ## The body's two branch conditions, decided over the grid -/

/-- "this is the row block's first column block": the accumulator is reset. -/
abbrev cond1_0 (i : grid1.Coords) : Prop := (Scalar.cmpi .ne (Scalar.extui (Scalar.cmpi .eq (BitVec.ofNat 32 (i 1).val) 0#32)) 0#32) = 1#1
/-- "this is the row block's last column block": the result block is stored. -/
abbrev cond1_1 (i : grid1.Coords) : Prop := k1_cond2 i = 1#1
theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6_A : ∀ t : Fin cfg1.N, t.val % 2 = 0 → cfg1.idle 6 (grid1.coords t) = true := by decide +kernel
theorem noFlush1_6_A : ∀ t : Fin cfg1.N, t.val % 2 = 0 → (cfg1.win 6).flush t = false := by decide +kernel
theorem liveAt1_6_B : ∀ t : Fin cfg1.N, ¬t.val % 2 = 0 → cfg1.idle 6 (grid1.coords t) = false := by decide +kernel

/-! ## The body's triple, per case -/

set_option maxHeartbeats 1000000 in
/-- At a row block's first column block the body only reads the adjacency block and the scaled-feature block and leaves
    the accumulator, whatever it held, at their matrix product added to zero; it touches no other buffer. -/
theorem run1_A (c : Dev nD) (i : grid1.Coords)
    (arg2 : Memref sig .tc .vmem S1024x4096 .f32) (harg2 : arg2.IsWhole) (arg3 : Memref sig .tc .vmem S4096x256 .f32) (harg3 : arg3.IsWhole)
    (arg4 : Memref sig .tc .vmem S1024x256 .f32) (harg4 : arg4.IsWhole) (arg5 : Memref sig .tc .vmem S1024x1 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x256 .f32) (harg9 : arg9.IsWhole) (hc0 : cond1_0 i) (hc1 : ¬cond1_1 i)
    (x0 : Vec F S1024x4096 .f32) (x1 : Vec F S4096x256 .f32) (E : Set ℕ) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (k1_pay2 (k1_pay1 (F := F)) x0 x1)) -∗ K ⟨⟩))
      ⊢ wp frame (wpE (defs₀ (F := F)) Variants.none c none) E (cc1_gcn_kernel i arg2 harg2 arg3 harg3 arg4 harg4 arg5 harg5 arg6 harg6 arg7 harg7 arg8 harg8 arg9 harg9) K := by
  simp only [cc1_gcn_kernel_eq_skeleton]; unfold cc1_gcn_kernel_skel
  unfold owns
  iintro ⟨⟨%f0, %hf0, H0⟩, ⟨%f1, %hf1, H1⟩, ⟨%d9, %f9, %hf9, H9⟩, Hk⟩
  obtain rfl := harg2.eq_unread hf0; obtain rfl := harg3.eq_unread hf1; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H9
  ipureintro
  sl_unfold_run_names
  rw [read_writes_whole _ _ hz2]
  simp only [View.readCov_unit_zero (S := S1024x256) _ hz2, View.readAt_eq_ld, harg2.read_unread, harg3.read_unread,
    View.ld_unit_zero (S := S1024x4096) hz2, View.ld_unit_zero (S := S4096x256) hz2]

set_option maxHeartbeats 1000000 in
/-- At a row block's last column block the body adds the blocks' matrix product to the accumulator's contents `xs`, and from
    the total stores the rectified linear layer of (features + inverse square root × total) into the result buffer; the six
    input blocks are only read. -/
theorem run1_B (c : Dev nD) (i : grid1.Coords)
    (arg2 : Memref sig .tc .vmem S1024x4096 .f32) (harg2 : arg2.IsWhole) (arg3 : Memref sig .tc .vmem S4096x256 .f32) (harg3 : arg3.IsWhole)
    (arg4 : Memref sig .tc .vmem S1024x256 .f32) (harg4 : arg4.IsWhole) (arg5 : Memref sig .tc .vmem S1024x1 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x256 .f32) (harg9 : arg9.IsWhole) (hc0 : ¬cond1_0 i) (hc1 : cond1_1 i)
    (x0 : Vec F S1024x4096 .f32) (x1 : Vec F S4096x256 .f32) (x2 : Vec F S1024x256 .f32) (x3 : Vec F S1024x1 .f32)
    (x4 : Vec F S256x256 .f32) (x5 : Vec F S1x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k1_pay3 x2 x3 (k1_pay2 xs x0 x1) x4 x5)
            ∗ owns (c : Thread nD τ) arg9 fullShare (k1_pay2 xs x0 x1)) -∗ K ⟨⟩))
      ⊢ wp frame (wpE (defs₀ (F := F)) Variants.none c none) E (cc1_gcn_kernel i arg2 harg2 arg3 harg3 arg4 harg4 arg5 harg5 arg6 harg6 arg7 harg7 arg8 harg8 arg9 harg9) K := by
  simp only [cc1_gcn_kernel_eq_skeleton]; unfold cc1_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    sl_unfold_run_names
    rw [read_writes_whole _ _ hz2]
    simp only [View.readCov_unit_zero (S := S1024x256) _ hz2, View.readAt_eq_ld, harg2.read_unread, harg3.read_unread, harg4.read_unread,
      harg5.read_unread, harg6.read_unread, harg7.read_unread, harg9.read_unread,
      View.ld_unit_zero (S := S1024x256) hz2, View.ld_unit_zero (S := S1024x1) hz2, View.ld_unit_zero (S := S256x256) hz2, View.ld_unit_zero (S := S1x256) hz2,
      View.ld_unit_zero (S := S1024x4096) hz2, View.ld_unit_zero (S := S4096x256) hz2]
  iexists _; isplitr
  swap; · iexact H9
  ipureintro
  sl_unfold_run_names
  rw [read_writes_whole _ _ hz2]
  simp only [View.readAt_eq_ld, harg2.read_unread, harg3.read_unread, harg9.read_unread,
    View.ld_unit_zero (S := S1024x256) hz2, View.ld_unit_zero (S := S1024x4096) hz2, View.ld_unit_zero (S := S4096x256) hz2]

section Regions

variable (V : (c : Dev nD) → (b : Ref sig .tc) → Buf (Elt F) ((c : Thread nD τ).loc b))

/-! ## The accumulator and the invariant, case by case -/

theorem acc1_even (c : Dev nD) (t : Fin cfg1.N) (h : t.val % 2 = 0) :
    acc1 V c t = k1_pay2 (k1_pay1 (F := F)) (iblk1 V c 0 t) (iblk1 V c 1 t) := by unfold acc1; rw [if_pos h]
theorem acc1_odd (c : Dev nD) (t : Fin cfg1.N) (h : ¬t.val % 2 = 0) :
    acc1 V c t = k1_pay2 (k1_pay2 (k1_pay1 (F := F)) (iblk1 V c 0 (prev1 t)) (iblk1 V c 1 (prev1 t))) (iblk1 V c 0 t) (iblk1 V c 1 t) := by
  unfold acc1; rw [if_neg h]

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c ⟨n, hn⟩)
      ∗ ((∃ d, owns (c : Thread nD τ) scM1 fullShare d) -∗ Pipeline.ΦA spec1 c)) := rfl
theorem Phi1_pos (c : Dev nD) (n : ℕ) (h : n ≤ cfg1.N) (hz : n ≠ 0) :
    Phi1 V c n h = iprop(owns (c : Thread nD τ) scM1 fullShare (acc1 V c ⟨n - 1, by omega⟩)
      ∗ ((∃ d, owns (c : Thread nD τ) scM1 fullShare d) -∗ Pipeline.ΦA spec1 c)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]

/-- What the launch hands over holds the accumulator at some contents, and gives itself back for it. -/
theorem PhiA1_split (c : Dev nD) :
    (Pipeline.ΦA spec1 c : sProp 𝕄) ⊢ iprop((∃ d, owns (c : Thread nD τ) scM1 fullShare d)
      ∗ ((∃ d, owns (c : Thread nD τ) scM1 fullShare d) -∗ Pipeline.ΦA spec1 c)) := by
  unfold Pipeline.ΦA; rw [scopedRest1_eq]
  simp only [scM1, owns_whole]
  iintro ⟨⟨B1, B2, B3, B4, B5, B6, B7, B8, B9, HA⟩, Hp⟩
  isplitl [HA]; · iexact HA
  iintro HA'
  isplitl [B1 B2 B3 B4 B5 B6 B7 B8 B9 HA']
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HA'
  iexact Hp

/-! ## Each input's staging buffer holds its block at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. At an even point it resets the accumulator and adds the block product, leaving the result window as
    it found it; at an odd point it adds the block product to what the point before left and stores the result block from
    the total. The accumulator is lent by the invariant and returned at its new contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 16 := lt_of_lt_of_eq t.isLt (show cfg1.N = 16 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_A t h0) (noFlush1_6_A t h0)]
    rw [show acc1 V c ⟨t.val, t.isLt⟩ = k1_pay2 (k1_pay1 (F := F)) (iblk1 V c 0 t) (iblk1 V c 1 t) from acc1_even V c t h0]
    by_cases hz : t.val = 0
    · rw [Phi1_castSucc V c t, Phi1_zero V c _ _ hz]
      iintro ⟨HΦ, Ho, ⟨%d0, H0⟩, ⟨%d1, H1⟩, ⟨%d2, H2⟩, ⟨%d3, H3⟩, ⟨%d4, H4⟩, ⟨%d5, H5⟩, H6⟩
      ihave HS := (PhiA1_split c) $$ HΦ
      icases HS with ⟨HS, HW⟩
      iapply (run1_A c (grid1.coords t) _ _ _ _ _ _ _ _ _ _ _ _ _ _ _ _ hc0 hc1 (iblk1 V c 0 t) (iblk1 V c 1 t) Set.univ _)
      isplitl [H0]; · iexact H0
      isplitl [H1]; · iexact H1
      isplitl [HS]; · iexact HS
      iintro ⟨H0, H1, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Phi1_castSucc V c t, Phi1_pos V c _ _ hz]
      iintro ⟨⟨HS, HW⟩, Ho, ⟨%d0, H0⟩, ⟨%d1, H1⟩, ⟨%d2, H2⟩, ⟨%d3, H3⟩, ⟨%d4, H4⟩, ⟨%d5, H5⟩, H6⟩
      iapply (run1_A c (grid1.coords t) _ _ _ _ _ _ _ _ _ _ _ _ _ _ _ _ hc0 hc1 (iblk1 V c 0 t) (iblk1 V c 1 t) Set.univ _)
      isplitl [H0]; · iexact H0
      isplitl [H1]; · iexact H1
      isplitl [HS]; · iexists _; iexact HS
      iintro ⟨H0, H1, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hc0 : ¬cond1_0 (grid1.coords t) := fun h => h0 ((hcond1_0 t).mp h)
    have hc1 : cond1_1 (grid1.coords t) := (hcond1_1 t).mpr (by omega)
    have hz : t.val ≠ 0 := fun e => h0 (by rw [e])
    rw [show (dat1 V c).leavesExact 6 t = owns (c : Thread nD τ) (st1_6 t) fullShare ((dat1 V c).after 6 t) from by
      unfold Dat.leavesExact; rw [liveAt1_6_B t h0], after1_6]
    unfold out1
    rw [show acc1 V c ⟨t.val, t.isLt⟩ = acc1 V c t from rfl, acc1_odd V c t h0]
    rw [Phi1_castSucc V c t, Phi1_pos V c _ _ hz]
    rw [show acc1 V c ⟨t.val - 1, by omega⟩ = k1_pay2 (k1_pay1 (F := F)) (iblk1 V c 0 (prev1 t)) (iblk1 V c 1 (prev1 t)) from
      acc1_even V c (prev1 t) (by show (t.val - 1) % 2 = 0; omega)]
    iintro ⟨⟨HS, HW⟩, Ho, ⟨%d0, H0⟩, ⟨%d1, H1⟩, ⟨%d2, H2⟩, ⟨%d3, H3⟩, ⟨%d4, H4⟩, ⟨%d5, H5⟩, ⟨%d6, H6⟩⟩
    iapply (run1_B c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HW]
    · isplitl [HS]; · iexact HS
      iexact HW
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega)]
  iintro ⟨HS, HW⟩
  iapply HW
  iexists _; iexact HS

end Regions

end Cert.KernelIdeal.Fr
end
-- ==== Proof.KIRun.lean ====
/-
  The run of the idealized kernel program: its main function as three segments (region 0, two host operations, region 1)
  over the launch theorem for several regions, ending with every unscoped buffer at the last boundary's contents.
-/
import proofs.«151426_j2224793059943_2_alg».proof.Proof.Gen.KernelIdeal.Launch
import proofs.«151426_j2224793059943_2_alg».proof.Proof.Gen.KernelIdeal.Skeleton
import proofs.«151426_j2224793059943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KIData
import proofs.«151426_j2224793059943_2_alg».proof.Proof.KIBody0
import proofs.«151426_j2224793059943_2_alg».proof.Proof.KIBody1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's three segments from the launch to the return -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W0`, left at `W1`. Its arrays are
    split out of the unscoped buffers and put back at the exit contents; the generator register and the scoped rest go
    into the region's invariant and come back out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (V0 m ρ) c)
    show (_ : sProp 𝕄) ⊢ Pipeline.ΦA spec0 c
    unfold Pipeline.ΦA
    iintro ⟨Hp, -, Hr⟩
    isplitl [Hr]; · iexact Hr
    iexact Hp
  hout c := by
    rw [Pipeline.ownSems0_none]
    refine BI.Entails.trans (hout0 (V0 m ρ) c) ?_
    show (Pipeline.ΦA spec0 c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register and the scoped rest go
    into the region's invariant and come back out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V2 m ρ) c)
    show (_ : sProp 𝕄) ⊢ Pipeline.ΦA spec1 c
    unfold Pipeline.ΦA
    iintro ⟨Hp, -, Hr⟩
    isplitl [Hr]; · iexact Hr
    iexact Hp
  hout c := by
    rw [Pipeline.ownSems0_none]
    refine BI.Entails.trans (hout1 (V2 m ρ) c) ?_
    show (Pipeline.ΦA spec1 c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Fr
end
-- ==== Proof.KData.lean ====
/-
  The proof data of the word-level kernel program's two pipelined regions, and the buffer contents at each boundary of its
  main function. Everything here is a definition or its projection; the bodies' runs and the launch are in the modules
  that import this one.
-/
import proofs.«151426_j2224793059943_2_alg».proof.Proof.Gen.Kernel.Launch
import proofs.«151426_j2224793059943_2_alg».proof.Proof.Gen.Kernel.Skeleton
import proofs.«151426_j2224793059943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The proof data of the two kernel regions, stated at the contents `V` the region is entered from

Both kernels walk a grid of 8 row blocks × 2 column blocks, the column block fastest: point `t` has row block `t / 2`
and column block `t % 2`. At an even point the body resets its accumulator and adds the first column block's
contribution; at an odd point it adds the second one and finishes the row block. So the accumulator after an even
point is one contribution over zero, after an odd point two, and nothing older is ever read. -/

section Regions

variable (V : (c : Dev nD) → (b : Ref sig .tc) → Buf (Elt F) ((c : Thread nD τ).loc b))

/-! ## Region 0: row sums, their inverse square roots, and the scaled features -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point before `t` (the first point's is itself: it is only consulted at odd points). -/
def prev0 (t : Fin cfg0.N) : Fin cfg0.N := ⟨t.val - 1, Nat.lt_of_le_of_lt (Nat.sub_le _ _) t.isLt⟩

/-- The row-sum accumulator after the body at point `t`: the partial row sums of the adjacency blocks seen so far in
    this row block, over zero. -/
def acc0 (c : Dev nD) (t : Fin cfg0.N) : Vec F S1024x1 .f32 :=
  if t.val % 2 = 0 then k0_pay2 (k0_pay1 (F := F)) (iblk0 V c 0 t)
  else k0_pay2 (k0_pay2 (k0_pay1 (F := F)) (iblk0 V c 0 (prev0 t))) (iblk0 V c 0 t)

/-- What the body leaves in the inverse-square-root window's buffer (consulted at odd points only: the window is idle at
    the even ones). -/
def dOut0 (c : Dev nD) (t : Fin cfg0.N) : Vec F S1024x1 .f32 := k0_pay3 (acc0 V c t)

/-- What the body leaves in the scaled-features window's buffer (consulted at odd points only). -/
def dhOut0 (c : Dev nD) (t : Fin cfg0.N) : Vec F S1024x256 .f32 := k0_pay4 (acc0 V c t) (iblk0 V c 1 t)

/-- The accumulator, a scoped buffer of the kernel's own. -/
abbrev scM0 : Memref sig .tc .vmem S1024x1 .f32 := Memref.whole cc0_scratch0

/-- The region's invariant before position `n`: at the start what the launch hands over; afterwards the accumulator at
    what the point before left in it, beside whatever turns an accumulator at any contents back into what the launch
    handed over. -/
def Phi0 (c : Dev nD) : (n : ℕ) → n ≤ cfg0.N → sProp 𝕄
  | 0, _ => Pipeline.ΦA spec0 c
  | n + 1, hn => iprop(owns (c : Thread nD τ) scM0 fullShare (acc0 V c ⟨n, hn⟩)
      ∗ ((∃ d, owns (c : Thread nD τ) scM0 fullShare d) -∗ Pipeline.ΦA spec0 c))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => dOut0 V c t
    | ⟨3, _⟩ => dhOut0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = dOut0 V c t := by dsimp only [dat0]
theorem after0_3 (c : Dev nD) (t : Fin cfg0.N) : (dat0 V c).after 3 t = dhOut0 V c t := by dsimp only [dat0]

/-! ## Region 1: the aggregation, the linear layer and the rectifier -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t`. -/
def prev1 (t : Fin cfg1.N) : Fin cfg1.N := ⟨t.val - 1, Nat.lt_of_le_of_lt (Nat.sub_le _ _) t.isLt⟩

/-- The product accumulator after the body at point `t`: the adjacency blocks seen so far in this row block times the
    matching blocks of scaled features, over zero. -/
def acc1 (c : Dev nD) (t : Fin cfg1.N) : Vec F S1024x256 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

/-- What the body leaves in the result window's buffer (consulted at odd points only). -/
def out1 (c : Dev nD) (t : Fin cfg1.N) : Vec F S1024x256 .f32 :=
  k1_pay3 (iblk1 V c 2 t) (iblk1 V c 3 t) (acc1 V c t) (iblk1 V c 4 t) (iblk1 V c 5 t)

/-- The accumulator, a scoped buffer of the kernel's own. -/
abbrev scM1 : Memref sig .tc .vmem S1024x256 .f32 := Memref.whole cc1_scratch0

/-- The region's invariant before position `n` (as region 0's). -/
def Phi1 (c : Dev nD) : (n : ℕ) → n ≤ cfg1.N → sProp 𝕄
  | 0, _ => Pipeline.ΦA spec1 c
  | n + 1, hn => iprop(owns (c : Thread nD τ) scM1 fullShare (acc1 V c ⟨n, hn⟩)
      ∗ ((∃ d, owns (c : Thread nD τ) scM1 fullShare d) -∗ Pipeline.ΦA spec1 c))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

end Regions

/-! # The buffer contents at each boundary of @main: region 0, the two host operations, region 1 -/

variable (m : (ℓ : Loc nD τ sig) → Buf (Elt F) ℓ) (ρ : Dev nD → PrngReg)

/-- Core `c`'s buffers at launch (region 0's entry: no host operation comes before it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations (region 1's entry): the weights transposed, the bias as a row. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

end Cert.Kernel.Fr
end
-- ==== Proof.KPrelude.lean ====
/-
  Two facts about accesses through the whole shape of a buffer, used by both regions' bodies.
-/
import proofs.«151426_j2224793059943_2_alg».proof.Proof.Gen.Kernel.Launch
import proofs.«151426_j2224793059943_2_alg».proof.Proof.Gen.Kernel.Skeleton
import proofs.«151426_j2224793059943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KData

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Two small facts about whole-shape accesses -/

/-- The zero offsets of a rank-2 access. -/
theorem hz2 : (![0, 0] : Fin 2 → ℕ) = fun _ => 0 := by funext a; fin_cases a <;> rfl

/-- What a buffer reads as after a list of stores whose LAST one is a store of the whole shape: that store's payload. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert.Kernel.Fr
end
-- ==== Proof.KBody0.lean ====
/-
  Region 0's body obligation: at every grid point the row-sum kernel, called on the pipeline's staging buffers holding the
  point's input blocks, runs to the end and leaves the buffers and its accumulator at what the proof data say.
-/
import proofs.«151426_j2224793059943_2_alg».proof.Proof.Gen.Kernel.Launch
import proofs.«151426_j2224793059943_2_alg».proof.Proof.Gen.Kernel.Skeleton
import proofs.«151426_j2224793059943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KData
import proofs.«151426_j2224793059943_2_alg».proof.Proof.KPrelude

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0's body at every grid point -/

/-! ## The body's two branch conditions, decided over the grid -/

/-- "this is the row block's first column block": the accumulator is reset. -/
abbrev cond0_0 (i : grid0.Coords) : Prop := (Scalar.cmpi .ne (Scalar.extui (Scalar.cmpi .eq (BitVec.ofNat 32 (i 1).val) 0#32)) 0#32) = 1#1
/-- "this is the row block's last column block": the outputs are stored. -/
abbrev cond0_1 (i : grid0.Coords) : Prop := k0_cond2 i = 1#1
theorem hcond0_0 : ∀ t : Fin cfg0.N, cond0_0 (grid0.coords t) ↔ t.val % 2 = 0 :=
  (by decide +kernel : ∀ t : Fin grid0.N, cond0_0 (grid0.coords t) ↔ t.val % 2 = 0)
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, t.val % 2 = 0 → cfg0.idle 2 (grid0.coords t) = true := by decide +kernel
theorem noFlush0_2_A : ∀ t : Fin cfg0.N, t.val % 2 = 0 → (cfg0.win 2).flush t = false := by decide +kernel
theorem liveAt0_2_B : ∀ t : Fin cfg0.N, ¬t.val % 2 = 0 → cfg0.idle 2 (grid0.coords t) = false := by decide +kernel
theorem idleAt0_3_A : ∀ t : Fin cfg0.N, t.val % 2 = 0 → cfg0.idle 3 (grid0.coords t) = true := by decide +kernel
theorem noFlush0_3_A : ∀ t : Fin cfg0.N, t.val % 2 = 0 → (cfg0.win 3).flush t = false := by decide +kernel
theorem liveAt0_3_B : ∀ t : Fin cfg0.N, ¬t.val % 2 = 0 → cfg0.idle 3 (grid0.coords t) = false := by decide +kernel

/-! ## The body's triple, per case -/

set_option maxHeartbeats 1000000 in
/-- At a row block's first column block the body only reads the adjacency block and leaves the accumulator, whatever it
    held, at the block's row sums added to zero; it touches no other buffer. -/
theorem run0_A (c : Dev nD) (i : grid0.Coords)
    (arg2 : Memref sig .tc .vmem S1024x4096 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x256 .f32) (harg5 : arg5.IsWhole)
    (arg6 : Memref sig .tc .vmem S1024x1 .f32) (harg6 : arg6.IsWhole) (hc0 : cond0_0 i) (hc1 : ¬cond0_1 i)
    (x0 : Vec F S1024x4096 .f32) (E : Set ℕ) (K : PUnit → sProp 𝕄) :
    iprop(owns (c : Thread nD τ) arg2 fullShare x0 ∗ (∃ d, owns (c : Thread nD τ) arg6 fullShare d)
        ∗ (iprop(owns (c : Thread nD τ) arg2 fullShare x0 ∗ owns (c : Thread nD τ) arg6 fullShare (k0_pay2 (k0_pay1 (F := F)) x0)) -∗ K ⟨⟩))
      ⊢ wp frame (wpE (defs₀ (F := F)) Variants.none c none) E (cc0_rowsum_kernel i arg2 harg2 arg3 harg3 arg4 harg4 arg5 harg5 arg6 harg6) K := by
  simp only [cc0_rowsum_kernel_eq_skeleton]; unfold cc0_rowsum_kernel_skel
  unfold owns
  iintro ⟨⟨%f0, %hf0, H0⟩, ⟨%d6, %f6, %hf6, H6⟩, Hk⟩
  obtain rfl := harg2.eq_unread hf0; obtain rfl := harg6.eq_unread hf6
  sl_exec (disch := first | exact hc0 | exact hc1)
  sl_step
  iapply Hk
  isplitl [H0]
  · iexists _; isplitr; · ipureintro; exact harg2.read_unread _
    iexact H0
  iexists _; isplitr
  swap; · iexact H6
  ipureintro
  rw [read_writes_whole _ _ hz2]
  sl_unfold_run_names
  simp only [View.readCov_unit_zero (S := S1024x1) _ hz2, View.readAt_eq_ld, harg2.read_unread, View.ld_unit_zero (S := S1024x4096) hz2]

set_option maxHeartbeats 1000000 in
/-- At a row block's last column block the body adds the block's row sums to the accumulator's contents `xs`, and from the
    total `s` stores its inverse square root into the first output buffer and that, spread over the columns, times the feature
    block into the second; the two input blocks are only read. -/
theorem run0_B (c : Dev nD) (i : grid0.Coords)
    (arg2 : Memref sig .tc .vmem S1024x4096 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x256 .f32) (harg5 : arg5.IsWhole)
    (arg6 : Memref sig .tc .vmem S1024x1 .f32) (harg6 : arg6.IsWhole) (hc0 : ¬cond0_0 i) (hc1 : cond0_1 i)
    (x0 : Vec F S1024x4096 .f32) (x1 : Vec F S1024x256 .f32) (xs : Vec F S1024x1 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare (k0_pay3 (k0_pay2 xs x0))
            ∗ owns (c : Thread nD τ) arg5 fullShare (k0_pay4 (k0_pay2 xs x0) x1)
            ∗ owns (c : Thread nD τ) arg6 fullShare (k0_pay2 xs x0)) -∗ K ⟨⟩))
      ⊢ wp frame (wpE (defs₀ (F := F)) Variants.none c none) E (cc0_rowsum_kernel i arg2 harg2 arg3 harg3 arg4 harg4 arg5 harg5 arg6 harg6) K := by
  simp only [cc0_rowsum_kernel_eq_skeleton]; unfold cc0_rowsum_kernel_skel
  unfold owns
  iintro ⟨⟨%f0, %hf0, H0⟩, ⟨%f1, %hf1, H1⟩, ⟨%d4, %f4, %hf4, H4⟩, ⟨%d5, %f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  have e6 : k0_pay2 (F := F) (View.ld xs (Rect.unit (s := S1024x1) ![0, 0] S1024x1.size inb_S1024x1_S1024x1_0_0))
      (View.ld x0 (Rect.unit (s := S1024x4096) ![0, 0] S1024x4096.size inb_S1024x4096_S1024x4096_0_0)) = k0_pay2 xs x0 := by
    rw [View.ld_unit_zero (S := S1024x1) hz2, View.ld_unit_zero (S := S1024x4096) hz2]
  isplitl [H4]
  · iexists _; isplitr
    swap; · iexact H4
    ipureintro
    sl_unfold_run_names
    rw [read_writes_whole _ _ hz2]
    simp only [View.readCov_unit_zero (S := S1024x1) _ hz2, View.readAt_eq_ld, harg2.read_unread, harg3.read_unread, harg6.read_unread, e6]
  isplitl [H5]
  · iexists _; isplitr
    swap; · iexact H5
    ipureintro
    sl_unfold_run_names
    rw [read_writes_whole _ _ hz2]
    simp only [View.readCov_unit_zero (S := S1024x1) _ hz2, View.readAt_eq_ld, harg2.read_unread, harg3.read_unread, harg6.read_unread, e6,
      View.ld_unit_zero (S := S1024x256) hz2]
  iexists _; isplitr
  swap; · iexact H6
  ipureintro
  sl_unfold_run_names
  rw [read_writes_whole _ _ hz2]
  simp only [View.readAt_eq_ld, harg2.read_unread, harg6.read_unread, e6]

section Regions

variable (V : (c : Dev nD) → (b : Ref sig .tc) → Buf (Elt F) ((c : Thread nD τ).loc b))

/-! ## The accumulator and the invariant, case by case -/

theorem acc0_even (c : Dev nD) (t : Fin cfg0.N) (h : t.val % 2 = 0) :
    acc0 V c t = k0_pay2 (k0_pay1 (F := F)) (iblk0 V c 0 t) := by unfold acc0; rw [if_pos h]
theorem acc0_odd (c : Dev nD) (t : Fin cfg0.N) (h : ¬t.val % 2 = 0) :
    acc0 V c t = k0_pay2 (k0_pay2 (k0_pay1 (F := F)) (iblk0 V c 0 (prev0 t))) (iblk0 V c 0 t) := by unfold acc0; rw [if_neg h]

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (acc0 V c ⟨n, hn⟩)
      ∗ ((∃ d, owns (c : Thread nD τ) scM0 fullShare d) -∗ Pipeline.ΦA spec0 c)) := rfl
theorem Phi0_pos (c : Dev nD) (n : ℕ) (h : n ≤ cfg0.N) (hz : n ≠ 0) :
    Phi0 V c n h = iprop(owns (c : Thread nD τ) scM0 fullShare (acc0 V c ⟨n - 1, by omega⟩)
      ∗ ((∃ d, owns (c : Thread nD τ) scM0 fullShare d) -∗ Pipeline.ΦA spec0 c)) := by
  cases n with
  | zero => exact absurd rfl hz
  | succ n => rfl
theorem Phi0_castSucc (c : Dev nD) (t : Fin cfg0.N) :
    (dat0 V c).Φ t.castSucc = Phi0 V c t.val (Nat.le_of_lt t.isLt) := by
  dsimp only [dat0]; simp only [Fin.coe_castSucc]

/-- What the launch hands over holds the accumulator at some contents, and gives itself back for it. -/
theorem PhiA0_split (c : Dev nD) :
    (Pipeline.ΦA spec0 c : sProp 𝕄) ⊢ iprop((∃ d, owns (c : Thread nD τ) scM0 fullShare d)
      ∗ ((∃ d, owns (c : Thread nD τ) scM0 fullShare d) -∗ Pipeline.ΦA spec0 c)) := by
  unfold Pipeline.ΦA; rw [scopedRest0_eq]
  simp only [scM0, owns_whole]
  iintro ⟨⟨HA, HT⟩, Hp⟩
  isplitl [HA]; · iexact HA
  iintro HA'
  isplitl [HA' HT]
  · isplitl [HA']; · iexact HA'
    iexact HT
  iexact Hp

/-! ## Each input's staging buffer holds its block at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. At an even point it resets the accumulator and adds the block's row sums, leaving the two
    output windows as it found them; at an odd point it adds the block's row sums to what the point before left and
    stores both outputs from the total. The accumulator is lent by the invariant and returned at its new contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 16 := lt_of_lt_of_eq t.isLt (show cfg0.N = 16 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2_A t h0) (noFlush0_2_A t h0),
      Dat.leavesExact_idle (dat0 V c) 3 t (idleAt0_3_A t h0) (noFlush0_3_A t h0)]
    rw [show acc0 V c ⟨t.val, t.isLt⟩ = k0_pay2 (k0_pay1 (F := F)) (iblk0 V c 0 t) from acc0_even V c t h0]
    by_cases hz : t.val = 0
    · rw [Phi0_castSucc V c t, Phi0_zero V c _ _ hz]
      iintro ⟨HΦ, Ho, ⟨%d0, H0⟩, ⟨%d1, H1⟩, H2, H3⟩
      ihave HS := (PhiA0_split c) $$ HΦ
      icases HS with ⟨HS, HW⟩
      iapply (run0_A c (grid0.coords t) _ _ _ _ _ _ _ _ _ _ hc0 hc1 (iblk0 V c 0 t) Set.univ _)
      isplitl [H0]; · iexact H0
      isplitl [HS]; · iexact HS
      iintro ⟨H0, HS⟩
      isplitl [HS HW]
      · isplitl [HS]; · iexact HS
        iexact HW
      isplitl [Ho]; · iexact Ho
      isplitl [H0]; · iexact H0
      isplitl [H1]; · iexact H1
      isplitl [H2]; · iexact H2
      iexact H3
    · rw [Phi0_castSucc V c t, Phi0_pos V c _ _ hz]
      iintro ⟨⟨HS, HW⟩, Ho, ⟨%d0, H0⟩, ⟨%d1, H1⟩, H2, H3⟩
      iapply (run0_A c (grid0.coords t) _ _ _ _ _ _ _ _ _ _ hc0 hc1 (iblk0 V c 0 t) Set.univ _)
      isplitl [H0]; · iexact H0
      isplitl [HS]; · iexists _; iexact HS
      iintro ⟨H0, HS⟩
      isplitl [HS HW]
      · isplitl [HS]; · iexact HS
        iexact HW
      isplitl [Ho]; · iexact Ho
      isplitl [H0]; · iexact H0
      isplitl [H1]; · iexact H1
      isplitl [H2]; · iexact H2
      iexact H3
  · have hc0 : ¬cond0_0 (grid0.coords t) := fun h => h0 ((hcond0_0 t).mp h)
    have hc1 : cond0_1 (grid0.coords t) := (hcond0_1 t).mpr (by omega)
    have hz : t.val ≠ 0 := fun e => h0 (by rw [e])
    rw [show (dat0 V c).leavesExact 2 t = owns (c : Thread nD τ) (st0_2 t) fullShare ((dat0 V c).after 2 t) from by
      unfold Dat.leavesExact; rw [liveAt0_2_B t h0], after0_2]
    rw [show (dat0 V c).leavesExact 3 t = owns (c : Thread nD τ) (st0_3 t) fullShare ((dat0 V c).after 3 t) from by
      unfold Dat.leavesExact; rw [liveAt0_3_B t h0], after0_3]
    unfold dOut0 dhOut0
    rw [show acc0 V c ⟨t.val, t.isLt⟩ = acc0 V c t from rfl, acc0_odd V c t h0]
    rw [Phi0_castSucc V c t, Phi0_pos V c _ _ hz]
    rw [show acc0 V c ⟨t.val - 1, by omega⟩ = k0_pay2 (k0_pay1 (F := F)) (iblk0 V c 0 (prev0 t)) from
      acc0_even V c (prev0 t) (by show (t.val - 1) % 2 = 0; omega)]
    iintro ⟨⟨HS, HW⟩, Ho, ⟨%d0, H0⟩, ⟨%d1, H1⟩, ⟨%d2, H2⟩, ⟨%d3, H3⟩⟩
    iapply (run0_B c (grid0.coords t) _ _ _ _ _ _ _ _ _ _ hc0 hc1 (iblk0 V c 0 t) (iblk0 V c 1 t) _ Set.univ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS HW]
    · isplitl [HS]; · iexact HS
      iexact HW
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 16 := N_0; omega)]
  iintro ⟨HS, HW⟩
  iapply HW
  iexists _; iexact HS

end Regions

end Cert.Kernel.Fr
end
-- ==== Proof.KBody1.lean ====
/-
  Region 1's body obligation: at every grid point the aggregation kernel, called on the pipeline's staging buffers holding the
  point's input blocks, runs to the end and leaves the buffers and its accumulator at what the proof data say.
-/
import proofs.«151426_j2224793059943_2_alg».proof.Proof.Gen.Kernel.Launch
import proofs.«151426_j2224793059943_2_alg».proof.Proof.Gen.Kernel.Skeleton
import proofs.«151426_j2224793059943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KData
import proofs.«151426_j2224793059943_2_alg».proof.Proof.KPrelude

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1's body at every grid point -/

/-! ## The body's two branch conditions, decided over the grid -/

/-- "this is the row block's first column block": the accumulator is reset. -/
abbrev cond1_0 (i : grid1.Coords) : Prop := (Scalar.cmpi .ne (Scalar.extui (Scalar.cmpi .eq (BitVec.ofNat 32 (i 1).val) 0#32)) 0#32) = 1#1
/-- "this is the row block's last column block": the result block is stored. -/
abbrev cond1_1 (i : grid1.Coords) : Prop := k1_cond2 i = 1#1
theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6_A : ∀ t : Fin cfg1.N, t.val % 2 = 0 → cfg1.idle 6 (grid1.coords t) = true := by decide +kernel
theorem noFlush1_6_A : ∀ t : Fin cfg1.N, t.val % 2 = 0 → (cfg1.win 6).flush t = false := by decide +kernel
theorem liveAt1_6_B : ∀ t : Fin cfg1.N, ¬t.val % 2 = 0 → cfg1.idle 6 (grid1.coords t) = false := by decide +kernel

/-! ## The body's triple, per case -/

set_option maxHeartbeats 1000000 in
/-- At a row block's first column block the body only reads the adjacency block and the scaled-feature block and leaves
    the accumulator, whatever it held, at their matrix product added to zero; it touches no other buffer. -/
theorem run1_A (c : Dev nD) (i : grid1.Coords)
    (arg2 : Memref sig .tc .vmem S1024x4096 .f32) (harg2 : arg2.IsWhole) (arg3 : Memref sig .tc .vmem S4096x256 .f32) (harg3 : arg3.IsWhole)
    (arg4 : Memref sig .tc .vmem S1024x256 .f32) (harg4 : arg4.IsWhole) (arg5 : Memref sig .tc .vmem S1024x1 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x256 .f32) (harg9 : arg9.IsWhole) (hc0 : cond1_0 i) (hc1 : ¬cond1_1 i)
    (x0 : Vec F S1024x4096 .f32) (x1 : Vec F S4096x256 .f32) (E : Set ℕ) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (k1_pay2 (k1_pay1 (F := F)) x0 x1)) -∗ K ⟨⟩))
      ⊢ wp frame (wpE (defs₀ (F := F)) Variants.none c none) E (cc1_gcn_kernel i arg2 harg2 arg3 harg3 arg4 harg4 arg5 harg5 arg6 harg6 arg7 harg7 arg8 harg8 arg9 harg9) K := by
  simp only [cc1_gcn_kernel_eq_skeleton]; unfold cc1_gcn_kernel_skel
  unfold owns
  iintro ⟨⟨%f0, %hf0, H0⟩, ⟨%f1, %hf1, H1⟩, ⟨%d9, %f9, %hf9, H9⟩, Hk⟩
  obtain rfl := harg2.eq_unread hf0; obtain rfl := harg3.eq_unread hf1; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H9
  ipureintro
  sl_unfold_run_names
  rw [read_writes_whole _ _ hz2]
  simp only [View.readCov_unit_zero (S := S1024x256) _ hz2, View.readAt_eq_ld, harg2.read_unread, harg3.read_unread,
    View.ld_unit_zero (S := S1024x4096) hz2, View.ld_unit_zero (S := S4096x256) hz2]

set_option maxHeartbeats 1000000 in
/-- At a row block's last column block the body adds the blocks' matrix product to the accumulator's contents `xs`, and from
    the total stores the rectified linear layer of (features + inverse square root × total) into the result buffer; the six
    input blocks are only read. -/
theorem run1_B (c : Dev nD) (i : grid1.Coords)
    (arg2 : Memref sig .tc .vmem S1024x4096 .f32) (harg2 : arg2.IsWhole) (arg3 : Memref sig .tc .vmem S4096x256 .f32) (harg3 : arg3.IsWhole)
    (arg4 : Memref sig .tc .vmem S1024x256 .f32) (harg4 : arg4.IsWhole) (arg5 : Memref sig .tc .vmem S1024x1 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x256 .f32) (harg9 : arg9.IsWhole) (hc0 : ¬cond1_0 i) (hc1 : cond1_1 i)
    (x0 : Vec F S1024x4096 .f32) (x1 : Vec F S4096x256 .f32) (x2 : Vec F S1024x256 .f32) (x3 : Vec F S1024x1 .f32)
    (x4 : Vec F S256x256 .f32) (x5 : Vec F S1x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k1_pay3 x2 x3 (k1_pay2 xs x0 x1) x4 x5)
            ∗ owns (c : Thread nD τ) arg9 fullShare (k1_pay2 xs x0 x1)) -∗ K ⟨⟩))
      ⊢ wp frame (wpE (defs₀ (F := F)) Variants.none c none) E (cc1_gcn_kernel i arg2 harg2 arg3 harg3 arg4 harg4 arg5 harg5 arg6 harg6 arg7 harg7 arg8 harg8 arg9 harg9) K := by
  simp only [cc1_gcn_kernel_eq_skeleton]; unfold cc1_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    sl_unfold_run_names
    rw [read_writes_whole _ _ hz2]
    simp only [View.readCov_unit_zero (S := S1024x256) _ hz2, View.readAt_eq_ld, harg2.read_unread, harg3.read_unread, harg4.read_unread,
      harg5.read_unread, harg6.read_unread, harg7.read_unread, harg9.read_unread,
      View.ld_unit_zero (S := S1024x256) hz2, View.ld_unit_zero (S := S1024x1) hz2, View.ld_unit_zero (S := S256x256) hz2, View.ld_unit_zero (S := S1x256) hz2,
      View.ld_unit_zero (S := S1024x4096) hz2, View.ld_unit_zero (S := S4096x256) hz2]
  iexists _; isplitr
  swap; · iexact H9
  ipureintro
  sl_unfold_run_names
  rw [read_writes_whole _ _ hz2]
  simp only [View.readAt_eq_ld, harg2.read_unread, harg3.read_unread, harg9.read_unread,
    View.ld_unit_zero (S := S1024x256) hz2, View.ld_unit_zero (S := S1024x4096) hz2, View.ld_unit_zero (S := S4096x256) hz2]

section Regions

variable (V : (c : Dev nD) → (b : Ref sig .tc) → Buf (Elt F) ((c : Thread nD τ).loc b))

/-! ## The accumulator and the invariant, case by case -/

theorem acc1_even (c : Dev nD) (t : Fin cfg1.N) (h : t.val % 2 = 0) :
    acc1 V c t = k1_pay2 (k1_pay1 (F := F)) (iblk1 V c 0 t) (iblk1 V c 1 t) := by unfold acc1; rw [if_pos h]
theorem acc1_odd (c : Dev nD) (t : Fin cfg1.N) (h : ¬t.val % 2 = 0) :
    acc1 V c t = k1_pay2 (k1_pay2 (k1_pay1 (F := F)) (iblk1 V c 0 (prev1 t)) (iblk1 V c 1 (prev1 t))) (iblk1 V c 0 t) (iblk1 V c 1 t) := by
  unfold acc1; rw [if_neg h]

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c ⟨n, hn⟩)
      ∗ ((∃ d, owns (c : Thread nD τ) scM1 fullShare d) -∗ Pipeline.ΦA spec1 c)) := rfl
theorem Phi1_pos (c : Dev nD) (n : ℕ) (h : n ≤ cfg1.N) (hz : n ≠ 0) :
    Phi1 V c n h = iprop(owns (c : Thread nD τ) scM1 fullShare (acc1 V c ⟨n - 1, by omega⟩)
      ∗ ((∃ d, owns (c : Thread nD τ) scM1 fullShare d) -∗ Pipeline.ΦA spec1 c)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]

/-- What the launch hands over holds the accumulator at some contents, and gives itself back for it. -/
theorem PhiA1_split (c : Dev nD) :
    (Pipeline.ΦA spec1 c : sProp 𝕄) ⊢ iprop((∃ d, owns (c : Thread nD τ) scM1 fullShare d)
      ∗ ((∃ d, owns (c : Thread nD τ) scM1 fullShare d) -∗ Pipeline.ΦA spec1 c)) := by
  unfold Pipeline.ΦA; rw [scopedRest1_eq]
  simp only [scM1, owns_whole]
  iintro ⟨⟨B1, B2, B3, B4, B5, B6, B7, B8, B9, HA⟩, Hp⟩
  isplitl [HA]; · iexact HA
  iintro HA'
  isplitl [B1 B2 B3 B4 B5 B6 B7 B8 B9 HA']
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HA'
  iexact Hp

/-! ## Each input's staging buffer holds its block at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. At an even point it resets the accumulator and adds the block product, leaving the result window as
    it found it; at an odd point it adds the block product to what the point before left and stores the result block from
    the total. The accumulator is lent by the invariant and returned at its new contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 16 := lt_of_lt_of_eq t.isLt (show cfg1.N = 16 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_A t h0) (noFlush1_6_A t h0)]
    rw [show acc1 V c ⟨t.val, t.isLt⟩ = k1_pay2 (k1_pay1 (F := F)) (iblk1 V c 0 t) (iblk1 V c 1 t) from acc1_even V c t h0]
    by_cases hz : t.val = 0
    · rw [Phi1_castSucc V c t, Phi1_zero V c _ _ hz]
      iintro ⟨HΦ, Ho, ⟨%d0, H0⟩, ⟨%d1, H1⟩, ⟨%d2, H2⟩, ⟨%d3, H3⟩, ⟨%d4, H4⟩, ⟨%d5, H5⟩, H6⟩
      ihave HS := (PhiA1_split c) $$ HΦ
      icases HS with ⟨HS, HW⟩
      iapply (run1_A c (grid1.coords t) _ _ _ _ _ _ _ _ _ _ _ _ _ _ _ _ hc0 hc1 (iblk1 V c 0 t) (iblk1 V c 1 t) Set.univ _)
      isplitl [H0]; · iexact H0
      isplitl [H1]; · iexact H1
      isplitl [HS]; · iexact HS
      iintro ⟨H0, H1, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Phi1_castSucc V c t, Phi1_pos V c _ _ hz]
      iintro ⟨⟨HS, HW⟩, Ho, ⟨%d0, H0⟩, ⟨%d1, H1⟩, ⟨%d2, H2⟩, ⟨%d3, H3⟩, ⟨%d4, H4⟩, ⟨%d5, H5⟩, H6⟩
      iapply (run1_A c (grid1.coords t) _ _ _ _ _ _ _ _ _ _ _ _ _ _ _ _ hc0 hc1 (iblk1 V c 0 t) (iblk1 V c 1 t) Set.univ _)
      isplitl [H0]; · iexact H0
      isplitl [H1]; · iexact H1
      isplitl [HS]; · iexists _; iexact HS
      iintro ⟨H0, H1, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hc0 : ¬cond1_0 (grid1.coords t) := fun h => h0 ((hcond1_0 t).mp h)
    have hc1 : cond1_1 (grid1.coords t) := (hcond1_1 t).mpr (by omega)
    have hz : t.val ≠ 0 := fun e => h0 (by rw [e])
    rw [show (dat1 V c).leavesExact 6 t = owns (c : Thread nD τ) (st1_6 t) fullShare ((dat1 V c).after 6 t) from by
      unfold Dat.leavesExact; rw [liveAt1_6_B t h0], after1_6]
    unfold out1
    rw [show acc1 V c ⟨t.val, t.isLt⟩ = acc1 V c t from rfl, acc1_odd V c t h0]
    rw [Phi1_castSucc V c t, Phi1_pos V c _ _ hz]
    rw [show acc1 V c ⟨t.val - 1, by omega⟩ = k1_pay2 (k1_pay1 (F := F)) (iblk1 V c 0 (prev1 t)) (iblk1 V c 1 (prev1 t)) from
      acc1_even V c (prev1 t) (by show (t.val - 1) % 2 = 0; omega)]
    iintro ⟨⟨HS, HW⟩, Ho, ⟨%d0, H0⟩, ⟨%d1, H1⟩, ⟨%d2, H2⟩, ⟨%d3, H3⟩, ⟨%d4, H4⟩, ⟨%d5, H5⟩, ⟨%d6, H6⟩⟩
    iapply (run1_B c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HW]
    · isplitl [HS]; · iexact HS
      iexact HW
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega)]
  iintro ⟨HS, HW⟩
  iapply HW
  iexists _; iexact HS

end Regions

end Cert.Kernel.Fr
end
-- ==== Proof.KRun.lean ====
/-
  The run of the word-level kernel program: its main function as three segments (region 0, two host operations, region 1)
  over the launch theorem for several regions, ending with every unscoped buffer at the last boundary's contents.
-/
import proofs.«151426_j2224793059943_2_alg».proof.Proof.Gen.Kernel.Launch
import proofs.«151426_j2224793059943_2_alg».proof.Proof.Gen.Kernel.Skeleton
import proofs.«151426_j2224793059943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«151426_j2224793059943_2_alg».proof.Proof.KData
import proofs.«151426_j2224793059943_2_alg».proof.Proof.KBody0
import proofs.«151426_j2224793059943_2_alg».proof.Proof.KBody1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's three segments from the launch to the return -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W0`, left at `W1`. Its arrays are
    split out of the unscoped buffers and put back at the exit contents; the generator register and the scoped rest go
    into the region's invariant and come back out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (V0 m ρ) c)
    show (_ : sProp 𝕄) ⊢ Pipeline.ΦA spec0 c
    unfold Pipeline.ΦA
    iintro ⟨Hp, -, Hr⟩
    isplitl [Hr]; · iexact Hr
    iexact Hp
  hout c := by
    rw [Pipeline.ownSems0_none]
    refine BI.Entails.trans (hout0 (V0 m ρ) c) ?_
    show (Pipeline.ΦA spec0 c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register and the scoped rest go
    into the region's invariant and come back out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V2 m ρ) c)
    show (_ : sProp 𝕄) ⊢ Pipeline.ΦA spec1 c
    unfold Pipeline.ΦA
    iintro ⟨Hp, -, Hr⟩
    isplitl [Hr]; · iexact Hr
    iexact Hp
  hout c := by
    rw [Pipeline.ownSems0_none]
    refine BI.Entails.trans (hout1 (V2 m ρ) c) ?_
    show (Pipeline.ΦA spec1 c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Fr
end
-- ==== Proof.KIArgs.lean ====
/-
  What the idealized kernel program's buffers hold at the boundaries of its main function, at the buffers the value
  proof reads.

  The main function is: region 0, two host operations (the weights transposed into a new buffer, the bias re-laid as a
  row into another), region 1. A region changes only its output arrays; an array it only reads, and every buffer it does
  not touch, holds afterwards what it held before. A host operation changes only its result buffer. So an argument of
  the main function, which nothing writes, holds at every boundary what it held at launch; region 0's two outputs hold
  after the host operations what region 0 left in them; and the two host results are their operation's function of the
  launch contents of the weights and of the bias.
-/
import proofs.«151426_j2224793059943_2_alg».proof.Proof.KIData

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-! ## The host operations leave every buffer but their two results alone -/

theorem W2_of_ne (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-! ## The arguments after region 0: as launched -/

theorem W1_main_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_main_arg2 : W1 m ρ c (Proc.devRef .tc main_arg2) = m ((c : Thread nD τ).loc main_arg2) :=
  W1_of_ne m ρ c main_arg2 (by decide)
theorem W1_main_arg3 : W1 m ρ c (Proc.devRef .tc main_arg3) = m ((c : Thread nD τ).loc main_arg3) :=
  W1_of_ne m ρ c main_arg3 (by decide)

/-! ## The arguments after the host operations: as launched -/

theorem W2_main_arg0 : W2 m ρ c (Proc.devRef .tc main_arg0) = m ((c : Thread nD τ).loc main_arg0) :=
  (W2_of_ne m ρ c main_arg0 (by decide) (by decide)).trans (W1_main_arg0 m ρ c)
theorem W2_main_arg1 : W2 m ρ c (Proc.devRef .tc main_arg1) = m ((c : Thread nD τ).loc main_arg1) :=
  (W2_of_ne m ρ c main_arg1 (by decide) (by decide)).trans (W1_main_arg1 m ρ c)
theorem W2_main_arg2 : W2 m ρ c (Proc.devRef .tc main_arg2) = m ((c : Thread nD τ).loc main_arg2) :=
  (W2_of_ne m ρ c main_arg2 (by decide) (by decide)).trans (W1_main_arg2 m ρ c)
theorem W2_main_arg3 : W2 m ρ c (Proc.devRef .tc main_arg3) = m ((c : Thread nD τ).loc main_arg3) :=
  (W2_of_ne m ρ c main_arg3 (by decide) (by decide)).trans (W1_main_arg3 m ρ c)

/-! ## The arguments after region 1: as launched -/

theorem W3_main_arg0 : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_main_arg0 m ρ c)
theorem W3_main_arg1 : W3 m ρ c (Proc.devRef .tc main_arg1) = m ((c : Thread nD τ).loc main_arg1) :=
  ((W3_arr m ρ c 2).trans (((dat1 (V2 m ρ) c).arrAt_in 2 rfl _).trans (A_eq1 (V2 m ρ) c 2))).trans (W2_main_arg1 m ρ c)
theorem W3_main_arg2 : W3 m ρ c (Proc.devRef .tc main_arg2) = m ((c : Thread nD τ).loc main_arg2) :=
  (W3_of_ne m ρ c main_arg2 (by decide)).trans (W2_main_arg2 m ρ c)
theorem W3_main_arg3 : W3 m ρ c (Proc.devRef .tc main_arg3) = m ((c : Thread nD τ).loc main_arg3) :=
  (W3_of_ne m ρ c main_arg3 (by decide)).trans (W2_main_arg3 m ρ c)

/-! ## Region 0's outputs after the host operations: what region 0 left -/

theorem W2_main_v0_0 : W2 m ρ c (Proc.devRef .tc main_v0_0) = (dat0 (V0 m ρ) c).arrAt 2 cfg0.N :=
  (W2_of_ne m ρ c main_v0_0 (by decide) (by decide)).trans (W1_arr m ρ c 2)
theorem W2_main_v0_1 : W2 m ρ c (Proc.devRef .tc main_v0_1) = (dat0 (V0 m ρ) c).arrAt 3 cfg0.N :=
  (W2_of_ne m ρ c main_v0_1 (by decide) (by decide)).trans (W1_arr m ρ c 3)

/-! ## The two host results: the weights transposed, the bias as a row -/

theorem W2_main_v1 :
    W2 m ρ c (Proc.devRef .tc main_v1)
      = transpose S256x256 [1, 0] (m ((c : Thread nD τ).loc main_arg2)) transposes_S256x256_S256x256_1_0 := by
  have h : W2 m ρ c (Proc.devRef .tc main_v1)
      = transpose S256x256 [1, 0] (W1 m ρ c (Proc.devRef .tc main_arg2)) transposes_S256x256_S256x256_1_0 := by
    show StableHlo.after hostOps1 (W1 m ρ c) (Proc.devRef .tc main_v1) = _
    generalize W1 m ρ c = X
    after_results
  rw [h, W1_main_arg2]

theorem W2_main_v2 :
    W2 m ρ c (Proc.devRef .tc main_v2)
      = shapeCast S1x256 (m ((c : Thread nD τ).loc main_arg3)) shapeCasts_S256_S1x256 := by
  have h : W2 m ρ c (Proc.devRef .tc main_v2)
      = shapeCast S1x256 (W1 m ρ c (Proc.devRef .tc main_arg3)) shapeCasts_S256_S1x256 := by
    show StableHlo.after hostOps1 (W1 m ρ c) (Proc.devRef .tc main_v2) = _
    generalize W1 m ρ c = X
    after_results
    rfl
  rw [h, W1_main_arg3]

end Cert.KernelIdeal.Fr

end
-- ==== Proof.KArgs.lean ====
/-
  What the word-level kernel program's buffers hold at the boundaries of its main function, at the buffers the value
  proof reads.

  The main function is: region 0, two host operations (the weights transposed into a new buffer, the bias re-laid as a
  row into another), region 1. A region changes only its output arrays; an array it only reads, and every buffer it does
  not touch, holds afterwards what it held before. A host operation changes only its result buffer. So an argument of
  the main function, which nothing writes, holds at every boundary what it held at launch; region 0's two outputs hold
  after the host operations what region 0 left in them; and the two host results are their operation's function of the
  launch contents of the weights and of the bias.
-/
import proofs.«151426_j2224793059943_2_alg».proof.Proof.KData

set_option maxRecDepth 16384

noncomputable section

namespace Cert.Kernel.Fr

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ) (ρ : Dev nD → PrngReg) (c : Dev nD)

/-! ## The host operations leave every buffer but their two results alone -/

theorem W2_of_ne (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-! ## The arguments after region 0: as launched -/

theorem W1_main_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_main_arg2 : W1 m ρ c (Proc.devRef .tc main_arg2) = m ((c : Thread nD τ).loc main_arg2) :=
  W1_of_ne m ρ c main_arg2 (by decide)
theorem W1_main_arg3 : W1 m ρ c (Proc.devRef .tc main_arg3) = m ((c : Thread nD τ).loc main_arg3) :=
  W1_of_ne m ρ c main_arg3 (by decide)

/-! ## The arguments after the host operations: as launched -/

theorem W2_main_arg0 : W2 m ρ c (Proc.devRef .tc main_arg0) = m ((c : Thread nD τ).loc main_arg0) :=
  (W2_of_ne m ρ c main_arg0 (by decide) (by decide)).trans (W1_main_arg0 m ρ c)
theorem W2_main_arg1 : W2 m ρ c (Proc.devRef .tc main_arg1) = m ((c : Thread nD τ).loc main_arg1) :=
  (W2_of_ne m ρ c main_arg1 (by decide) (by decide)).trans (W1_main_arg1 m ρ c)
theorem W2_main_arg2 : W2 m ρ c (Proc.devRef .tc main_arg2) = m ((c : Thread nD τ).loc main_arg2) :=
  (W2_of_ne m ρ c main_arg2 (by decide) (by decide)).trans (W1_main_arg2 m ρ c)
theorem W2_main_arg3 : W2 m ρ c (Proc.devRef .tc main_arg3) = m ((c : Thread nD τ).loc main_arg3) :=
  (W2_of_ne m ρ c main_arg3 (by decide) (by decide)).trans (W1_main_arg3 m ρ c)

/-! ## The arguments after region 1: as launched -/

theorem W3_main_arg0 : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_main_arg0 m ρ c)
theorem W3_main_arg1 : W3 m ρ c (Proc.devRef .tc main_arg1) = m ((c : Thread nD τ).loc main_arg1) :=
  ((W3_arr m ρ c 2).trans (((dat1 (V2 m ρ) c).arrAt_in 2 rfl _).trans (A_eq1 (V2 m ρ) c 2))).trans (W2_main_arg1 m ρ c)
theorem W3_main_arg2 : W3 m ρ c (Proc.devRef .tc main_arg2) = m ((c : Thread nD τ).loc main_arg2) :=
  (W3_of_ne m ρ c main_arg2 (by decide)).trans (W2_main_arg2 m ρ c)
theorem W3_main_arg3 : W3 m ρ c (Proc.devRef .tc main_arg3) = m ((c : Thread nD τ).loc main_arg3) :=
  (W3_of_ne m ρ c main_arg3 (by decide)).trans (W2_main_arg3 m ρ c)

/-! ## Region 0's outputs after the host operations: what region 0 left -/

theorem W2_main_v0_0 : W2 m ρ c (Proc.devRef .tc main_v0_0) = (dat0 (V0 m ρ) c).arrAt 2 cfg0.N :=
  (W2_of_ne m ρ c main_v0_0 (by decide) (by decide)).trans (W1_arr m ρ c 2)
theorem W2_main_v0_1 : W2 m ρ c (Proc.devRef .tc main_v0_1) = (dat0 (V0 m ρ) c).arrAt 3 cfg0.N :=
  (W2_of_ne m ρ c main_v0_1 (by decide) (by decide)).trans (W1_arr m ρ c 3)

/-! ## The two host results: the weights transposed, the bias as a row -/

theorem W2_main_v1 :
    W2 m ρ c (Proc.devRef .tc main_v1)
      = transpose S256x256 [1, 0] (m ((c : Thread nD τ).loc main_arg2)) transposes_S256x256_S256x256_1_0 := by
  have h : W2 m ρ c (Proc.devRef .tc main_v1)
      = transpose S256x256 [1, 0] (W1 m ρ c (Proc.devRef .tc main_arg2)) transposes_S256x256_S256x256_1_0 := by
    show StableHlo.after hostOps1 (W1 m ρ c) (Proc.devRef .tc main_v1) = _
    generalize W1 m ρ c = X
    after_results
  rw [h, W1_main_arg2]

theorem W2_main_v2 :
    W2 m ρ c (Proc.devRef .tc main_v2)
      = shapeCast S1x256 (m ((c : Thread nD τ).loc main_arg3)) shapeCasts_S256_S1x256 := by
  have h : W2 m ρ c (Proc.devRef .tc main_v2)
      = shapeCast S1x256 (W1 m ρ c (Proc.devRef .tc main_arg3)) shapeCasts_S256_S1x256 := by
    show StableHlo.after hostOps1 (W1 m ρ c) (Proc.devRef .tc main_v2) = _
    generalize W1 m ρ c = X
    after_results
    rfl
  rw [h, W1_main_arg3]

end Cert.Kernel.Fr

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.KPay0.lean ====
/-
  Region 0's body arithmetic, read entry by entry on the extended reals.

  The body keeps a column of partial row sums. Reset, the column is zero; one step adds to each row the sum of
  that row of the adjacency block in hand. At the last column block the column's entries are turned into their
  inverse square roots, and each row of the feature block is scaled by its row's inverse square root.
-/
import proofs.«151426_j2224793059943_2_alg».proof.Proof.Gen.KernelIdeal.Skeleton
import proofs.«151426_j2224793059943_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val0

open Idealize.ShloMosaic Idealize.ShloMosaic.ValueIdx
open Cert.KernelIdeal Cert.KernelIdeal.Gen
open scoped BigOperators

/-- The reset column is zero at every row. -/
theorem pay1_apply (p : Fin 1024) (u : Fin 1) : k0_pay1 (F := Ideal) (ix2 p u) = 0 := by
  unfold k0_pay1
  rw [shapeCast_self]
  exact Ideal.ofBits_zero_f32

/-- The lane sum of a 1024 × 4096 block at row `p`: the sum of that row's 4096 entries. -/
theorem rowsum_apply (v4 : Vec Ideal S1024x4096 .f32) (hacc : (0x00000000#32 : BitVec 32) = 0x00000000#32)
    (p : Fin 1024) :
    multiReduction (F := Ideal) .add [1] S1024 v4 0x00000000#32 reduces_S1024x4096_S1024 (.inl rfl) hacc (ix1 p)
      = ∑ k : Fin 4096, v4 (ix2 p k) := by
  refine (Ideal.multiReduction_add_single v4 0x00000000#32 reduces_S1024x4096_S1024 (.inl rfl) hacc (ix1 p)).trans ?_
  refine Finset.sum_congr rfl fun k _ => congrArg v4 ?_
  funext ax; apply Fin.ext
  match ax with
  | ⟨0, _⟩ => rfl
  | ⟨1, _⟩ => rfl

/-- One accumulation step at row `p`: what the column held there plus the sum of row `p` of the block. -/
theorem pay2_apply (v3 : Vec Ideal S1024x1 .f32) (v4 : Vec Ideal S1024x4096 .f32) (p : Fin 1024) (u : Fin 1) :
    k0_pay2 v3 v4 (ix2 p u) = v3 (ix2 p u) + ∑ k : Fin 4096, v4 (ix2 p k) := by
  unfold k0_pay2
  rw [shapeCast_self]
  refine (addf_apply _ _ _).trans ?_
  refine congrArg (v3 (ix2 p u) + ·) ?_
  refine (Cert.LibKeepdims.shapeCast_a_a1_apply _ shapeCasts_S1024_S1024x1 p u).trans ?_
  exact rowsum_apply v4 rfl p

/-- The inverse square root, row by row. -/
theorem pay3_apply (v14 : Vec Ideal S1024x1 .f32) (p : Fin 1024) (u : Fin 1) :
    k0_pay3 v14 (ix2 p u) = Ideal.rsqrt (v14 (ix2 p u)) := rfl

/-- The scaled features: entry `(p, q)` is row `p`'s inverse square root times the feature block's entry. -/
theorem pay4_apply (v14 : Vec Ideal S1024x1 .f32) (v17 : Vec Ideal S1024x256 .f32) (p : Fin 1024) (q : Fin 256) (u : Fin 1) :
    k0_pay4 v14 v17 (ix2 p q) = Ideal.rsqrt (v14 (ix2 p u)) * v17 (ix2 p q) := by
  unfold k0_pay4
  refine (mulf_apply _ _ _).trans ?_
  refine congrArg (· * v17 (ix2 p q)) ?_
  exact (Cert.LibKeepdims.broadcastTo_a1_ab_apply _ broadcasts_S1024x1_S1024x256 p q u).trans (pay3_apply v14 p u)

end Cert.KernelIdeal.Val0

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.KVal0.lean ====
/-
  Region 0's two result arrays, index by index.

  The grid has 8 row blocks and 2 column blocks, the column block fastest: point t works on row block t / 2 and
  column block t % 2. The results are written back at the odd points only, where the running column holds
  (0 + the row sums over the first 4096 columns) + the row sums over the last 4096 columns: the whole row sum.
  So row r of the first result is the inverse square root of row r's sum, and entry (r, q) of the second is that
  times the feature entry (r, q). The point that writes row r is 2 * (r / 1024) + 1.
-/
import proofs.«151426_j2224793059943_2_alg».proof.Proof.KIData
import proofs.«151426_j2224793059943_2_alg».proof.Proof.Spec
import proofs.«151426_j2224793059943_2_alg».proof.Proof.KPay0
import proofs.«151426_j2224793059943_2_alg».proof.Proof.LibTileSum
import Idealize.ShloMosaic.Lib.Pipeline.Value

set_option maxRecDepth 16384

noncomputable section

namespace Cert.KernelIdeal.Val0

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr
open scoped BigOperators

variable (V : (c : Dev nD) → (b : Ref sig .tc) → Buf (Elt Ideal) ((c : Thread nD τ).loc b)) (c : Dev nD)

/-- The printed index maps over the grid: every window's row block at point t is t / 2; the adjacency window's
    column block is t % 2 and the other windows have one column block. -/
theorem idx_facts : ∀ t : Fin cfg0.N,
    win0_0.index t (0 : Fin 2) = t.val / 2 ∧ win0_0.index t (1 : Fin 2) = t.val % 2
    ∧ win0_1.index t (0 : Fin 2) = t.val / 2 ∧ win0_1.index t (1 : Fin 2) = 0
    ∧ win0_2.index t (0 : Fin 2) = t.val / 2 ∧ win0_2.index t (1 : Fin 2) = 0
    ∧ win0_3.index t (0 : Fin 2) = t.val / 2 ∧ win0_3.index t (1 : Fin 2) = 0 :=
  (by decide +kernel : ∀ t : Fin grid0.N, _)

/-- Row p of the row block of point t, as a row of the whole array. -/
def rowOf (t : Fin cfg0.N) (p : Fin 1024) : Fin 8192 :=
  ⟨t.val / 2 * 1024 + p.val, by
    have h : t.val < 16 := lt_of_lt_of_eq t.isLt N_0
    have := p.isLt; omega⟩

/-- Column k of column block b, as a column of the whole adjacency matrix. -/
def colOf (b : Fin 2) (k : Fin 4096) : Fin 8192 := ⟨b.val * 4096 + k.val, by have := b.isLt; have := k.isLt; omega⟩

/-- A row's sum over all 8192 columns is its sum over the first 4096 plus its sum over the last 4096. -/
theorem deg_split (g : Cert.GcnSpec.IdxG → EReal) (i : Fin 8192) :
    Cert.GcnSpec.deg g i = ∑ k : Fin 4096, g (ix2 i (colOf 0 k)) + ∑ k : Fin 4096, g (ix2 i (colOf 1 k)) := by
  unfold Cert.GcnSpec.deg
  rw [TileSum.sum_axis (show 2 * 4096 = 8192 from rfl) (fun j => g (ix2 i j)), Fin.sum_univ_two]
  rfl

/-- The adjacency window's block at point t, read at (p, k): the array at row (t/2)·1024 + p, column (t%2)·4096 + k. -/
theorem g_blk (t : Fin cfg0.N) (p : Fin 1024) (k : Fin 4096) :
    (iblk0 V c 0 t : Vec Ideal S1024x4096 .f32) (ix2 p k)
      = V c main_arg0 (ix2 (rowOf t p) (colOf ⟨t.val % 2, Nat.mod_lt _ (by decide)⟩ k)) := by
  obtain ⟨e0, e1, -⟩ := idx_facts t
  unfold iblk0
  rw [View.read_apply]
  show V c main_arg0 (((cfg0.win 0).blk t).view.emb (ix2 p k)) = _
  refine congrArg (V c main_arg0) ?_
  funext a; apply Fin.ext
  match a with
  | ⟨0, _⟩ => show win0_0.index t (0 : Fin 2) * 1024 + 1 * p.val = t.val / 2 * 1024 + p.val; rw [e0]; omega
  | ⟨1, _⟩ => show win0_0.index t (1 : Fin 2) * 4096 + 1 * k.val = t.val % 2 * 4096 + k.val; rw [e1]; omega

/-- The feature window's block at point t, read at (p, q): the array at row (t/2)·1024 + p, column q. -/
theorem h_blk (t : Fin cfg0.N) (p : Fin 1024) (q : Fin 256) :
    (iblk0 V c 1 t : Vec Ideal S1024x256 .f32) (ix2 p q) = V c main_arg1 (ix2 (rowOf t p) q) := by
  obtain ⟨-, -, e2, e3, -⟩ := idx_facts t
  unfold iblk0
  rw [View.read_apply]
  show V c main_arg1 (((cfg0.win 1).blk t).view.emb (ix2 p q)) = _
  refine congrArg (V c main_arg1) ?_
  funext a; apply Fin.ext
  match a with
  | ⟨0, _⟩ => show win0_1.index t (0 : Fin 2) * 1024 + 1 * p.val = t.val / 2 * 1024 + p.val; rw [e2]; omega
  | ⟨1, _⟩ => show win0_1.index t (1 : Fin 2) * 256 + 1 * q.val = q.val; rw [e3]; omega

/-- At an odd point the point before is in the same row block. -/
theorem rowOf_prev (t : Fin cfg0.N) (ht : t.val % 2 = 1) (p : Fin 1024) : rowOf (prev0 t) p = rowOf t p :=
  Fin.ext (by show (t.val - 1) / 2 * 1024 + p.val = t.val / 2 * 1024 + p.val; omega)

/-- The running column at an odd point, row p: the whole sum of that row of the adjacency matrix, reached as
    (0 + the sum over the first 4096 columns) + the sum over the last 4096 columns. -/
theorem acc0_odd (t : Fin cfg0.N) (ht : t.val % 2 = 1) (p : Fin 1024) (u : Fin 1) :
    acc0 V c t (ix2 p u) = Cert.GcnSpec.deg (V c main_arg0) (rowOf t p) := by
  unfold acc0
  rw [if_neg (by omega)]
  refine (pay2_apply (k0_pay2 (k0_pay1 (F := Ideal)) (iblk0 V c 0 (prev0 t))) (iblk0 V c 0 t) p u).trans ?_
  rw [pay2_apply (k0_pay1 (F := Ideal)) (iblk0 V c 0 (prev0 t)) p u, pay1_apply p u, zero_add]
  rw [deg_split]
  refine congrArg₂ (· + ·) (Finset.sum_congr rfl fun k _ => ?_) (Finset.sum_congr rfl fun k _ => ?_)
  · rw [g_blk V c (prev0 t) p k, rowOf_prev t ht p]
    refine congrArg (fun j => V c main_arg0 (ix2 (rowOf t p) j)) (Fin.ext ?_)
    show (t.val - 1) % 2 * 4096 + k.val = 0 * 4096 + k.val
    omega
  · rw [g_blk V c t p k]
    refine congrArg (fun j => V c main_arg0 (ix2 (rowOf t p) j)) (Fin.ext ?_)
    show t.val % 2 * 4096 + k.val = 1 * 4096 + k.val
    omega

/-- The inverse square roots, as one function of the adjacency matrix. -/
abbrev Gd (g : S8192x8192.Idx → EReal) : S8192x1.Idx → EReal := fun idx => Cert.GcnSpec.dinv g (idx 0)

/-- The scaled features, as one function of the adjacency matrix and the features. -/
abbrev Gdh (g : S8192x8192.Idx → EReal) (h : S8192x256.Idx → EReal) : S8192x256.Idx → EReal :=
  fun idx => Cert.GcnSpec.dinv g (idx 0) * h idx

/-- What an odd point writes back into the first result is its block of the inverse square roots. -/
theorem flushed_d (t : Fin cfg0.N) (hf : (cfg0.win 2).flush t = true) :
    (dat0 V c).flushed 2 t = ((cfg0.win 2).blk t).view.read (Elt Ideal) (Gd (V c main_arg0)) := by
  have ht : t.val % 2 = 1 := (flush0_2 t).mp hf
  obtain ⟨-, -, -, -, e4, e5, -⟩ := idx_facts t
  show (cfg0.win 2).cut (grid0.coords t) ((dat0 V c).after 2 t) = _
  rw [after0_2]
  funext y
  obtain ⟨p, u, rfl⟩ : ∃ (p : Fin 1024) (u : Fin 1), y = ix2 p u := ⟨y 0, y 1, eq_ix2 (n0 := 1024) (n1 := 1) y⟩
  rw [View.read_apply]
  show dOut0 V c t (ix2 p u) = Cert.GcnSpec.dinv (V c main_arg0) ((((cfg0.win 2).blk t).view.emb (ix2 p u)) 0)
  unfold dOut0
  rw [pay3_apply (acc0 V c t) p u, acc0_odd V c t ht p u]
  unfold Cert.GcnSpec.dinv
  refine congrArg (fun i => Ideal.rsqrt (Cert.GcnSpec.deg (V c main_arg0) i)) (Fin.ext ?_)
  show t.val / 2 * 1024 + p.val = win0_2.index t (0 : Fin 2) * 1024 + 1 * p.val
  rw [e4]; omega

/-- What an odd point writes back into the second result is its block of the scaled features. -/
theorem flushed_dh (t : Fin cfg0.N) (hf : (cfg0.win 3).flush t = true) :
    (dat0 V c).flushed 3 t = ((cfg0.win 3).blk t).view.read (Elt Ideal) (Gdh (V c main_arg0) (V c main_arg1)) := by
  have ht : t.val % 2 = 1 := (flush0_3 t).mp hf
  obtain ⟨-, -, -, -, -, -, e6, e7⟩ := idx_facts t
  show (cfg0.win 3).cut (grid0.coords t) ((dat0 V c).after 3 t) = _
  rw [after0_3]
  funext y
  obtain ⟨p, q, rfl⟩ : ∃ (p : Fin 1024) (q : Fin 256), y = ix2 p q := ⟨y 0, y 1, eq_ix2 (n0 := 1024) (n1 := 256) y⟩
  rw [View.read_apply]
  have hemb : ((cfg0.win 3).blk t).view.emb (ix2 p q) = (ix2 (rowOf t p) q : S8192x256.Idx) := by
    funext a; apply Fin.ext
    match a with
    | ⟨0, _⟩ => show win0_3.index t (0 : Fin 2) * 1024 + 1 * p.val = t.val / 2 * 1024 + p.val; rw [e6]; omega
    | ⟨1, _⟩ => show win0_3.index t (1 : Fin 2) * 256 + 1 * q.val = q.val; rw [e7]; omega
  show dhOut0 V c t (ix2 p q) = Gdh (V c main_arg0) (V c main_arg1) (((cfg0.win 3).blk t).view.emb (ix2 p q))
  rw [hemb]
  unfold dhOut0
  rw [pay4_apply (acc0 V c t) (iblk0 V c 1 t) p q 0, acc0_odd V c t ht p 0, h_blk V c t p q]
  rfl

/-- A row of the first result lies in point t's block iff it is one of that block's 1024 rows. -/
theorem mem_blk_d (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_0).slice (win0_2.rect t)).set ↔ _
  rw [View.set_slice_whole, Rect.mem_set_unit]
  exact Iff.rfl

/-- An entry of the second result lies in point t's block iff its row is one of that block's 1024 rows. -/
theorem mem_blk_dh (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_1).slice (win0_3.rect t)).set ↔ _
  rw [View.set_slice_whole, Rect.mem_set_unit]
  exact Iff.rfl

/-- The odd point of row block r / 1024. -/
def ptOf (r : Fin 8192) : Fin cfg0.N := ⟨2 * (r.val / 1024) + 1, by rw [show cfg0.N = 16 from N_0]; have := r.isLt; omega⟩

/-- Every row of the first result is written back by the odd point of its row block. -/
theorem cover_d (i : S8192x1.Idx) : ∃ t : Fin cfg0.N, (cfg0.win 2).flush t = true ∧ i ∈ ((cfg0.win 2).blk t).view.set := by
  have h0 : (i 0).val < 8192 := (i 0).isLt
  have h1 : (i 1).val < 1 := (i 1).isLt
  refine ⟨ptOf (i 0), (flush0_2 _).mpr (by show (2 * ((i 0).val / 1024) + 1) % 2 = 1; omega), ?_⟩
  obtain ⟨-, -, -, -, e4, e5, -⟩ := idx_facts (ptOf (i 0))
  have hv : (ptOf (i 0)).val = 2 * ((i 0).val / 1024) + 1 := rfl
  rw [mem_blk_d]
  intro a
  match a with
  | ⟨0, _⟩ => show win0_2.index (ptOf (i 0)) (0 : Fin 2) * 1024 ≤ (i 0).val ∧ (i 0).val < win0_2.index (ptOf (i 0)) (0 : Fin 2) * 1024 + 1024; rw [e4, hv]; omega
  | ⟨1, _⟩ => show win0_2.index (ptOf (i 0)) (1 : Fin 2) * 1 ≤ (i 1).val ∧ (i 1).val < win0_2.index (ptOf (i 0)) (1 : Fin 2) * 1 + 1; rw [e5]; omega

/-- Every entry of the second result is written back by the odd point of its row block. -/
theorem cover_dh (i : S8192x256.Idx) : ∃ t : Fin cfg0.N, (cfg0.win 3).flush t = true ∧ i ∈ ((cfg0.win 3).blk t).view.set := by
  have h0 : (i 0).val < 8192 := (i 0).isLt
  have h1 : (i 1).val < 256 := (i 1).isLt
  refine ⟨ptOf (i 0), (flush0_3 _).mpr (by show (2 * ((i 0).val / 1024) + 1) % 2 = 1; omega), ?_⟩
  obtain ⟨-, -, -, -, -, -, e6, e7⟩ := idx_facts (ptOf (i 0))
  have hv : (ptOf (i 0)).val = 2 * ((i 0).val / 1024) + 1 := rfl
  rw [mem_blk_dh]
  intro a
  match a with
  | ⟨0, _⟩ => show win0_3.index (ptOf (i 0)) (0 : Fin 2) * 1024 ≤ (i 0).val ∧ (i 0).val < win0_3.index (ptOf (i 0)) (0 : Fin 2) * 1024 + 1024; rw [e6, hv]; omega
  | ⟨1, _⟩ => show win0_3.index (ptOf (i 0)) (1 : Fin 2) * 256 ≤ (i 1).val ∧ (i 1).val < win0_3.index (ptOf (i 0)) (1 : Fin 2) * 256 + 256; rw [e7]; omega

/-- THE FIRST RESULT after the region: row i holds the inverse square root of row i's sum of the adjacency matrix the
    region was entered with. -/
theorem d_final : (dat0 (F := Ideal) V c).arrAt 2 cfg0.N = fun idx => Cert.GcnSpec.dinv (V c main_arg0) (idx 0) :=
  (dat0 V c).arrAt_eq_of_cover 2 (Gd (V c main_arg0)) (flushed_d V c) cover_d

/-- THE SECOND RESULT after the region: entry (i, q) holds row i's inverse square root times the feature entry (i, q). -/
theorem dh_final : (dat0 (F := Ideal) V c).arrAt 3 cfg0.N = fun idx => Cert.GcnSpec.dinv (V c main_arg0) (idx 0) * V c main_arg1 idx :=
  (dat0 V c).arrAt_eq_of_cover 3 (Gdh (V c main_arg0) (V c main_arg1)) (flushed_dh V c) cover_dh

end Cert.KernelIdeal.Val0

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.KPay1.lean ====
/-
  The arithmetic of the aggregation kernel's three stored values, read entry by entry on the extended reals.

  • the reset value is the zero block;
  • one accumulation step adds, at entry (p, q), the product row p of the adjacency block with column q of the
    scaled-feature block: acc(p, q) + Σ_k g(p, k) · dh(k, q);
  • the finishing step forms agg(p, cc) = h(p, cc) + d(p) · acc(p, cc), multiplies by the transposed weights, adds the
    bias row and rectifies: max (Σ_cc agg(p, cc) · wt(cc, q) + b(q)) 0.
  Every lemma is over variables of the literal block shapes and explicit coordinates.
-/
import proofs.«151426_j2224793059943_2_alg».proof.Proof.Gen.KernelIdeal.Skeleton
import proofs.«151426_j2224793059943_2_alg».proof.Proof.LibPlainMatmul
import proofs.«151426_j2224793059943_2_alg».proof.Proof.LibKeepdims
import proofs.«151426_j2224793059943_2_alg».proof.Proof.LibRowBroadcast
import Idealize.ShloMosaic.Lib.Pipeline.Value
import Idealize.ShloMosaic.Lib.ValueIdx
import Idealize.ShloMosaic.PureOps.Ideal.Laws

noncomputable section

namespace Cert.KernelIdeal.Val1

open Idealize.ShloMosaic Idealize.ShloMosaic.ValueIdx
open Cert.KernelIdeal Cert.KernelIdeal.Gen
open scoped BigOperators

/-- The printed record of the two products' dimension numbers is the plain one: rows of the left operand against
    columns of the right. -/
theorem dotA_eq : dot_S1024x4096_S4096x256_S1024x256_1_0_0_1_n_n = DotDims.plain 1024 4096 256 := rfl
theorem dotB_eq : dot_S1024x256_S256x256_S1024x256_1_0_0_1_n_n = DotDims.plain 1024 256 256 := rfl

/-- The reset value: every entry is zero. -/
theorem pay1_apply (p : Fin 1024) (q : Fin 256) : k1_pay1 (F := Ideal) (ix2 p q) = 0 := by
  unfold k1_pay1
  rw [shapeCast_self]
  exact Ideal.ofBits_zero_f32

/-- One accumulation step at an entry: what was there plus row p of the adjacency block times column q of the
    scaled-feature block. -/
theorem pay2_apply (v3 : Vec Ideal S1024x256 .f32) (v4 : Vec Ideal S1024x4096 .f32) (v5 : Vec Ideal S4096x256 .f32)
    (p : Fin 1024) (q : Fin 256) :
    k1_pay2 v3 v4 v5 (ix2 p q) = v3 (ix2 p q) + ∑ k : Fin 4096, v4 (ix2 p k) * v5 (ix2 k q) := by
  unfold k1_pay2
  rw [shapeCast_self, shapeCast_self, dotA_eq]
  exact congrArg (v3 (ix2 p q) + ·) (matmul_plain_zero_apply 1024 4096 256 (some .fp32) v4 v5 p q)

/-- The finishing step at an entry. -/
theorem pay3_apply (v15 : Vec Ideal S1024x256 .f32) (v16 : Vec Ideal S1024x1 .f32) (v18 : Vec Ideal S1024x256 .f32)
    (v22 : Vec Ideal S256x256 .f32) (v25 : Vec Ideal S1x256 .f32) (p : Fin 1024) (q : Fin 256) :
    k1_pay3 v15 v16 v18 v22 v25 (ix2 p q)
      = max ((∑ cc : Fin 256, (v15 (ix2 p cc) + v16 (ix2 p (0 : Fin 1)) * v18 (ix2 p cc)) * v22 (ix2 cc q))
          + v25 (ix2 (0 : Fin 1) q)) 0 := by
  unfold k1_pay3
  rw [shapeCast_self, shapeCast_self, shapeCast_self, dotB_eq]
  show max (FloatOps.matmul (F := Ideal) (DotDims.plain 1024 256 256) (some .fp32)
      (addf v15 (mulf (broadcastTo S1024x256 v16 broadcasts_S1024x1_S1024x256) v18)) v22
      (constant (F := Ideal) S1024x256 .f32 0x00000000#32) (ix2 p q)
    + broadcastTo S1024x256 v25 broadcasts_S1x256_S1024x256 (ix2 p q)) (Ideal.ofBits .f32 0x00000000#32) = _
  rw [Ideal.ofBits_zero_f32, matmul_plain_zero_apply 1024 256 256 (some .fp32) _ v22 p q,
    Cert.LibRowBroadcast.broadcastTo_1b_ab_apply v25 broadcasts_S1x256_S1024x256 p q (0 : Fin 1)]
  refine congrArg (fun x => max (x + v25 (ix2 (0 : Fin 1) q)) 0) (Finset.sum_congr rfl fun cc _ => ?_)
  show (v15 (ix2 p cc) + broadcastTo S1024x256 v16 broadcasts_S1024x1_S1024x256 (ix2 p cc) * v18 (ix2 p cc)) * v22 (ix2 cc q) = _
  rw [Cert.LibKeepdims.broadcastTo_a1_ab_apply v16 broadcasts_S1024x1_S1024x256 p cc (0 : Fin 1)]

end Cert.KernelIdeal.Val1

end
-- ==== Proof.KVal1.lean ====
/-
  What the aggregation kernel leaves in its result array: entry (i, o) of the array is
      max (Σ_cc (h[i,cc] + d[i] · Σ_j g[i,j] · dh[j,cc]) · wt[cc,o] + b[o]) 0,
  for the arrays g, h, d, dh, wt, b as the kernel finds them.

  The grid has 8 row blocks of 1024 rows and, inside each, 2 column blocks of 4096 columns of the adjacency matrix;
  point t works on row block t / 2 and column block t % 2. The result block of row block i is written back at the odd
  point 2 i + 1, when the accumulator holds the first column block's product over zero plus the second's: entry
  (p, cc) of it is Σ_{k<4096} g[1024 i + p, k] · dh[k, cc] + Σ_{k<4096} g[1024 i + p, 4096 + k] · dh[4096 + k, cc],
  which is the sum over all 8192 columns cut into its two tiles.
-/
import proofs.«151426_j2224793059943_2_alg».proof.Proof.KIData
import proofs.«151426_j2224793059943_2_alg».proof.Proof.KPay1
import proofs.«151426_j2224793059943_2_alg».proof.Proof.LibTileSum
import Idealize.ShloMosaic.Lib.Pipeline.Value

noncomputable section

namespace Cert.KernelIdeal.Val1

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr
open scoped BigOperators

variable (V : (c : Dev nD) → (b : Ref sig .tc) → Buf (Elt Ideal) ((c : Thread nD τ).loc b)) (c : Dev nD)

/-- The index maps over the grid: point t has row block t / 2 and column block t % 2; the adjacency window follows
    both, the scaled features the column block, the features, the scales and the result the row block, and the weights
    and the bias stay at their one block. -/
theorem idx_facts : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = t.val / 2 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 2 ∧ win1_6.index t (1 : Fin 2) = 0 :=
  (by decide +kernel : ∀ t : Fin grid1.N, _)

/-- The six arrays the kernel reads, as the region finds them, each typed by its literal shape: the adjacency matrix,
    the features, the inverse square roots of the degrees (a column), the scaled features, the transposed weights and
    the bias (a row). -/
abbrev aG : S8192x8192.Idx → EReal := V c main_arg0
abbrev aH : S8192x256.Idx → EReal := V c main_arg1
abbrev aD : S8192x1.Idx → EReal := V c main_v0_0
abbrev aDH : S8192x256.Idx → EReal := V c main_v0_1
abbrev aWT : S256x256.Idx → EReal := V c main_v1
abbrev aB : S1x256.Idx → EReal := V c main_v2

/-- The adjacency block at point t: rows 1024 (t / 2) …, columns 4096 (t % 2) … of the matrix. -/
theorem blk0_apply (t : Fin cfg1.N) (p : Fin 1024) (k : Fin 4096) (i j : Fin 8192)
    (hi : i.val = t.val / 2 * 1024 + p.val) (hj : j.val = t.val % 2 * 4096 + k.val) :
    (iblk1 V c 0 t : Vec Ideal S1024x4096 .f32) (ix2 p k) = aG V c (ix2 i j) := by
  obtain ⟨e0, e1, -⟩ := idx_facts t
  unfold iblk1
  rw [View.read_apply]
  show V c main_arg0 _ = V c main_arg0 _
  refine congrArg (V c main_arg0) ?_
  funext a
  apply Fin.ext
  match a with
  | ⟨0, _⟩ => show win1_0.index t (0 : Fin 2) * 1024 + 1 * p.val = i.val; rw [e0, hi]; omega
  | ⟨1, _⟩ => show win1_0.index t (1 : Fin 2) * 4096 + 1 * k.val = j.val; rw [e1, hj]; omega

/-- The scaled-feature block at point t: rows 4096 (t % 2) … of the array, all 256 columns. -/
theorem blk1_apply (t : Fin cfg1.N) (k : Fin 4096) (q : Fin 256) (j : Fin 8192)
    (hj : j.val = t.val % 2 * 4096 + k.val) :
    (iblk1 V c 1 t : Vec Ideal S4096x256 .f32) (ix2 k q) = aDH V c (ix2 j q) := by
  obtain ⟨-, -, e0, e1, -⟩ := idx_facts t
  unfold iblk1
  rw [View.read_apply]
  show V c main_v0_1 _ = V c main_v0_1 _
  refine congrArg (V c main_v0_1) ?_
  funext a
  apply Fin.ext
  match a with
  | ⟨0, _⟩ => show win1_1.index t (0 : Fin 2) * 4096 + 1 * k.val = j.val; rw [e0, hj]; omega
  | ⟨1, _⟩ => show win1_1.index t (1 : Fin 2) * 256 + 1 * q.val = q.val; rw [e1]; omega

/-- The feature block at point t: rows 1024 (t / 2) … of the array. -/
theorem blk2_apply (t : Fin cfg1.N) (p : Fin 1024) (q : Fin 256) (i : Fin 8192)
    (hi : i.val = t.val / 2 * 1024 + p.val) :
    (iblk1 V c 2 t : Vec Ideal S1024x256 .f32) (ix2 p q) = aH V c (ix2 i q) := by
  obtain ⟨-, -, -, -, e0, e1, -⟩ := idx_facts t
  unfold iblk1
  rw [View.read_apply]
  show V c main_arg1 _ = V c main_arg1 _
  refine congrArg (V c main_arg1) ?_
  funext a
  apply Fin.ext
  match a with
  | ⟨0, _⟩ => show win1_2.index t (0 : Fin 2) * 1024 + 1 * p.val = i.val; rw [e0, hi]; omega
  | ⟨1, _⟩ => show win1_2.index t (1 : Fin 2) * 256 + 1 * q.val = q.val; rw [e1]; omega

/-- The scale block at point t: rows 1024 (t / 2) … of the column. -/
theorem blk3_apply (t : Fin cfg1.N) (p : Fin 1024) (u : Fin 1) (i : Fin 8192)
    (hi : i.val = t.val / 2 * 1024 + p.val) :
    (iblk1 V c 3 t : Vec Ideal S1024x1 .f32) (ix2 p u) = aD V c (ix2 i u) := by
  obtain ⟨-, -, -, -, -, -, e0, e1, -⟩ := idx_facts t
  unfold iblk1
  rw [View.read_apply]
  show V c main_v0_0 _ = V c main_v0_0 _
  refine congrArg (V c main_v0_0) ?_
  funext a
  apply Fin.ext
  match a with
  | ⟨0, _⟩ => show win1_3.index t (0 : Fin 2) * 1024 + 1 * p.val = i.val; rw [e0, hi]; omega
  | ⟨1, _⟩ => show win1_3.index t (1 : Fin 2) * 1 + 1 * u.val = u.val; rw [e1]; omega

/-- The weight block is the whole transposed weight matrix at every point. -/
theorem blk4_apply (t : Fin cfg1.N) (a b : Fin 256) :
    (iblk1 V c 4 t : Vec Ideal S256x256 .f32) (ix2 a b) = aWT V c (ix2 a b) := by
  obtain ⟨-, -, -, -, -, -, -, -, e0, e1, -⟩ := idx_facts t
  unfold iblk1
  rw [View.read_apply]
  show V c main_v1 _ = V c main_v1 _
  refine congrArg (V c main_v1) ?_
  funext x
  apply Fin.ext
  match x with
  | ⟨0, _⟩ => show win1_4.index t (0 : Fin 2) * 256 + 1 * a.val = a.val; rw [e0]; omega
  | ⟨1, _⟩ => show win1_4.index t (1 : Fin 2) * 256 + 1 * b.val = b.val; rw [e1]; omega

/-- The bias block is the whole bias row at every point. -/
theorem blk5_apply (t : Fin cfg1.N) (u : Fin 1) (q : Fin 256) :
    (iblk1 V c 5 t : Vec Ideal S1x256 .f32) (ix2 u q) = aB V c (ix2 u q) := by
  obtain ⟨-, -, -, -, -, -, -, -, -, -, e0, e1, -⟩ := idx_facts t
  unfold iblk1
  rw [View.read_apply]
  show V c main_v2 _ = V c main_v2 _
  refine congrArg (V c main_v2) ?_
  funext x
  apply Fin.ext
  match x with
  | ⟨0, _⟩ => show win1_5.index t (0 : Fin 2) * 1 + 1 * u.val = u.val; rw [e0]; omega
  | ⟨1, _⟩ => show win1_5.index t (1 : Fin 2) * 256 + 1 * q.val = q.val; rw [e1]; omega

/-- The accumulator after an odd point, at an entry: the first column block's product over zero plus the second's is
    the product over all 8192 columns, cut into its two tiles of 4096. -/
theorem acc1_apply (t : Fin cfg1.N) (ht : t.val % 2 = 1) (p : Fin 1024) (cc : Fin 256) (i : Fin 8192)
    (hi : i.val = t.val / 2 * 1024 + p.val) :
    acc1 V c t (ix2 p cc)
      = ∑ j : Fin 8192, aG V c (ix2 i j)
          * aDH V c (ix2 j cc) := by
  have hp : (prev1 t).val = t.val - 1 := rfl
  unfold acc1
  rw [if_neg (by omega)]
  refine (pay2_apply (k1_pay2 (k1_pay1 (F := Ideal)) (iblk1 V c 0 (prev1 t)) (iblk1 V c 1 (prev1 t)))
    (iblk1 V c 0 t) (iblk1 V c 1 t) p cc).trans ?_
  rw [pay2_apply (k1_pay1 (F := Ideal)) (iblk1 V c 0 (prev1 t)) (iblk1 V c 1 (prev1 t)) p cc, pay1_apply p cc, zero_add,
    TileSum.sum_axis (show 2 * 4096 = 8192 from rfl)
      (fun j => aG V c (ix2 i j)
        * aDH V c (ix2 j cc)),
    Fin.sum_univ_two]
  have hq : (prev1 t).val / 2 = t.val / 2 := by show (t.val - 1) / 2 = t.val / 2; omega
  have hr : (prev1 t).val % 2 = 0 := by show (t.val - 1) % 2 = 0; omega
  have hi' : i.val = (prev1 t).val / 2 * 1024 + p.val := by rw [hq]; exact hi
  refine congrArg₂ (· + ·) (Finset.sum_congr rfl fun k _ => ?_) (Finset.sum_congr rfl fun k _ => ?_)
  · have hk : (TileSum.idx (show 2 * 4096 = 8192 from rfl) (0 : Fin 2) k).val = (prev1 t).val % 2 * 4096 + k.val := by
      rw [hr]; rfl
    rw [blk0_apply V c (prev1 t) p k i (TileSum.idx (show 2 * 4096 = 8192 from rfl) (0 : Fin 2) k) hi' hk,
      blk1_apply V c (prev1 t) k cc (TileSum.idx (show 2 * 4096 = 8192 from rfl) (0 : Fin 2) k) hk]
  · have hk : (TileSum.idx (show 2 * 4096 = 8192 from rfl) (1 : Fin 2) k).val = t.val % 2 * 4096 + k.val := by
      rw [ht]; rfl
    rw [blk0_apply V c t p k i (TileSum.idx (show 2 * 4096 = 8192 from rfl) (1 : Fin 2) k) hi hk,
      blk1_apply V c t k cc (TileSum.idx (show 2 * 4096 = 8192 from rfl) (1 : Fin 2) k) hk]

/-- The result array as one function of the arrays the kernel finds. -/
abbrev Gout : S8192x256.Idx → EReal := fun idx =>
  max ((∑ cc : Fin 256, (aH V c (ix2 (idx 0) cc) + aD V c (ix2 (idx 0) (0 : Fin 1))
      * ∑ j : Fin 8192, aG V c (ix2 (idx 0) j) * aDH V c (ix2 j cc)) * aWT V c (ix2 cc (idx 1)))
    + aB V c (ix2 (0 : Fin 1) (idx 1))) 0

/-- What an odd point leaves in the result block, at an entry: the row's aggregate through the linear layer and the
    rectifier. -/
theorem out1_apply (t : Fin cfg1.N) (ht : t.val % 2 = 1) (p : Fin 1024) (q : Fin 256) (i : Fin 8192)
    (hi : i.val = t.val / 2 * 1024 + p.val) :
    out1 V c t (ix2 p q) = Gout V c (ix2 i q) := by
  unfold out1
  refine (pay3_apply (iblk1 V c 2 t) (iblk1 V c 3 t) (acc1 V c t) (iblk1 V c 4 t) (iblk1 V c 5 t) p q).trans ?_
  rw [blk5_apply V c t (0 : Fin 1) q]
  refine congrArg (fun x : EReal => max (x + aB V c (ix2 (0 : Fin 1) q)) 0) (Finset.sum_congr rfl fun cc _ => ?_)
  rw [blk2_apply V c t p cc i hi, blk3_apply V c t p (0 : Fin 1) i hi, blk4_apply V c t cc q,
    acc1_apply V c t ht p cc i hi]

/-- What an odd point writes back is its block of the result function: the block of row block t / 2 holds rows
    1024 (t / 2) … of the array. -/
theorem flushed_eq (t : Fin cfg1.N) (hf : (cfg1.win 6).flush t = true) :
    (dat1 (F := Ideal) V c).flushed 6 t = ((cfg1.win 6).blk t).view.read (Elt Ideal) (Gout V c) := by
  have ht : t.val % 2 = 1 := (flush1_6 t).mp hf
  have hN : t.val < 16 := lt_of_lt_of_eq t.isLt N_1
  obtain ⟨-, -, -, -, -, -, -, -, -, -, -, -, e0, e1⟩ := idx_facts t
  show (cfg1.win 6).cut (grid1.coords t) ((dat1 (F := Ideal) V c).after 6 t) = _
  rw [after1_6]
  funext y
  have hy0 : (y 0).val < 1024 := (y 0).isLt
  have hy1 : (y 1).val < 256 := (y 1).isLt
  have hi : t.val / 2 * 1024 + (y 0).val < 8192 := by omega
  have hx : (cfg1.win 6).xinj (grid1.coords t) y = ix2 (⟨(y 0).val, hy0⟩ : Fin 1024) (⟨(y 1).val, hy1⟩ : Fin 256) :=
    funext fun a => by
      match a with
      | ⟨0, _⟩ => rfl
      | ⟨1, _⟩ => rfl
  have he : ((cfg1.win 6).blk t).view.emb y
      = ix2 (⟨t.val / 2 * 1024 + (y 0).val, hi⟩ : Fin 8192) (⟨(y 1).val, hy1⟩ : Fin 256) := by
    funext a
    apply Fin.ext
    match a with
    | ⟨0, _⟩ => show win1_6.index t (0 : Fin 2) * 1024 + 1 * (y 0).val = t.val / 2 * 1024 + (y 0).val; rw [e0]; omega
    | ⟨1, _⟩ => show win1_6.index t (1 : Fin 2) * 256 + 1 * (y 1).val = (y 1).val; rw [e1]; omega
  show out1 V c t ((cfg1.win 6).xinj (grid1.coords t) y) = Gout V c (((cfg1.win 6).blk t).view.emb y)
  rw [hx, he]
  exact out1_apply V c t ht _ _ _ rfl

/-- An index of the result array is in point t's block iff each coordinate is in the block's range on its axis. -/
theorem mem_blk (t : Fin cfg1.N) (i : S8192x256.Idx) :
    i ∈ ((cfg1.win 6).blk t).view.set ↔ ∀ a : Fin 2, win1_6.index t a * S1024x256.size a ≤ (i a).val
      ∧ (i a).val < win1_6.index t a * S1024x256.size a + S1024x256.size a := by
  show i ∈ ((View.whole main_v3).slice (win1_6.rect t)).set ↔ _
  rw [View.set_slice_whole, Rect.mem_set_unit]
  exact Iff.rfl

/-- Every row of the result array lies in the block written back at the odd point of its row block. -/
theorem cover (i : S8192x256.Idx) :
    ∃ t : Fin cfg1.N, (cfg1.win 6).flush t = true ∧ i ∈ ((cfg1.win 6).blk t).view.set := by
  have hi0 : (i 0).val < 8192 := (i 0).isLt
  have hi1 : (i 1).val < 256 := (i 1).isLt
  have hN : grid1.N = 16 := N_1
  let t : Fin cfg1.N := ⟨2 * ((i 0).val / 1024) + 1, by show _ < grid1.N; rw [hN]; omega⟩
  have htv : t.val = 2 * ((i 0).val / 1024) + 1 := rfl
  obtain ⟨-, -, -, -, -, -, -, -, -, -, -, -, e0, e1⟩ := idx_facts t
  refine ⟨t, (flush1_6 t).mpr (by omega), ?_⟩
  rw [mem_blk]
  intro a
  match a with
  | ⟨0, _⟩ =>
    show win1_6.index t (0 : Fin 2) * 1024 ≤ (i 0).val ∧ (i 0).val < win1_6.index t (0 : Fin 2) * 1024 + 1024
    rw [e0]; omega
  | ⟨1, _⟩ =>
    show win1_6.index t (1 : Fin 2) * 256 ≤ (i 1).val ∧ (i 1).val < win1_6.index t (1 : Fin 2) * 256 + 256
    rw [e1]; omega

/-- The result array after the region: the rectified linear layer of every row's aggregate. -/
theorem out_final : (dat1 (F := Ideal) V c).arrAt 6 cfg1.N = fun idx =>
    max ((∑ cc : Fin 256, (aH V c (ix2 (idx 0) cc) + aD V c (ix2 (idx 0) (0 : Fin 1))
      * ∑ j : Fin 8192, aG V c (ix2 (idx 0) j) * aDH V c (ix2 j cc)) * aWT V c (ix2 cc (idx 1)))
    + aB V c (ix2 (0 : Fin 1) (idx 1))) 0 :=
  (dat1 (F := Ideal) V c).arrAt_eq_of_cover 6 (Gout V c) (flushed_eq V c) cover

/-- The same with each array the kernel reads named: whatever the six arrays are, the result array is that function
    of them. -/
theorem out_final_of (g : S8192x8192.Idx → EReal) (h dh : S8192x256.Idx → EReal) (d : S8192x1.Idx → EReal)
    (wt : S256x256.Idx → EReal) (b2 : S1x256.Idx → EReal)
    (hg : aG V c = g) (hh : aH V c = h) (hd : aD V c = d) (hdh : aDH V c = dh) (hwt : aWT V c = wt) (hb : aB V c = b2) :
    (dat1 (F := Ideal) V c).arrAt 6 cfg1.N = fun idx =>
      max ((∑ cc : Fin 256, (h (ix2 (idx 0) cc) + d (ix2 (idx 0) (0 : Fin 1))
          * ∑ j : Fin 8192, g (ix2 (idx 0) j) * dh (ix2 j cc)) * wt (ix2 cc (idx 1)))
        + b2 (ix2 (0 : Fin 1) (idx 1))) 0 := by
  subst hg hh hd hdh hwt hb
  exact out_final V c

end Cert.KernelIdeal.Val1

end
-- ==== Proof.KChain.lean ====
/-
  The two regions and the two host operations between them, composed: the program's result array is the GCN layer of the
  four argument arrays.

  Region 1 is entered with the adjacency matrix and the features as launched (nothing before it writes them), the
  inverse square roots and the scaled features as region 0 left them, the weights transposed and the bias as a row.
  Substituting these into region 1's result, entry (i, o) is
    max (Σ_c (h[i,c] + dinv i · Σ_j g[i,j] · (dinv j · h[j,c])) · W[o,c] + b[o]) 0.
-/
import proofs.«151426_j2224793059943_2_alg».proof.Proof.KIData
import proofs.«151426_j2224793059943_2_alg».proof.Proof.Spec
import proofs.«151426_j2224793059943_2_alg».proof.Proof.KVal0
import proofs.«151426_j2224793059943_2_alg».proof.Proof.KIArgs
import proofs.«151426_j2224793059943_2_alg».proof.Proof.KVal1
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr
open scoped BigOperators

/-- The transposed weights at (cc, o): the weights at (o, cc). -/
theorem wt_apply (W : S256x256.Idx → EReal) (cc o : Fin 256) :
    transpose S256x256 [1, 0] W transposes_S256x256_S256x256_1_0 (ix2 cc o) = W (ix2 o cc) :=
  transpose_apply [1, 0] W transposes_S256x256_S256x256_1_0 (ix2 cc o) (ix2 o cc) fun b => by
    match b with
    | ⟨0, _⟩ => rfl
    | ⟨1, _⟩ => rfl

/-- The bias re-laid as a row, at (u, o): the bias at o (both sit at row-major position o). -/
theorem b2_apply (b : S256.Idx → EReal) (u : Fin 1) (o : Fin 256) :
    shapeCast S1x256 b shapeCasts_S256_S1x256 (ix2 u o) = b (ix1 o) :=
  shapeCast_apply b shapeCasts_S256_S1x256 (ix2 u o) (ix1 o) (by
    have hu : u.val = 0 := by omega
    rw [Shape.rowMajor_val_one, Shape.rowMajor_val_two]
    show o.val = u.val * 256 + o.val
    omega)

/-- Region 1's result, at the arrays it is entered with, is the layer: the scale column read at row i is row i's inverse
    square root, the scaled features at (j, cc) are row j's inverse square root times the feature, the transposed
    weights at (cc, o) are the weights at (o, cc), and the bias row at (0, o) is the bias at o. -/
theorem layer_eq (g : Cert.GcnSpec.IdxG → EReal) (h : Cert.GcnSpec.IdxH → EReal) (W : Cert.GcnSpec.IdxW → EReal)
    (b : Cert.GcnSpec.IdxB → EReal) (d : S8192x1.Idx → EReal) (dh : S8192x256.Idx → EReal) (wt : S256x256.Idx → EReal)
    (b2 : S1x256.Idx → EReal) (hd : d = fun idx => Cert.GcnSpec.dinv g (idx 0))
    (hdh : dh = fun idx => Cert.GcnSpec.dinv g (idx 0) * h idx)
    (hwt : wt = transpose S256x256 [1, 0] W transposes_S256x256_S256x256_1_0)
    (hb2 : b2 = shapeCast S1x256 b shapeCasts_S256_S1x256) :
    (fun idx : S8192x256.Idx => max ((∑ cc : Fin 256, (h (ix2 (idx 0) cc) + d (ix2 (idx 0) (0 : Fin 1))
        * ∑ j : Fin 8192, g (ix2 (idx 0) j) * dh (ix2 j cc)) * wt (ix2 cc (idx 1))) + b2 (ix2 (0 : Fin 1) (idx 1))) 0)
      = Cert.GcnSpec.G g h W b := by
  subst hd hdh hwt hb2
  funext idx
  unfold Cert.GcnSpec.G Cert.GcnSpec.out Cert.GcnSpec.agg
  refine congrArg₂ (fun x y => max (x + y) 0) (Finset.sum_congr rfl fun cc _ => ?_) (b2_apply b 0 (idx 1))
  exact congrArg₂ (· * ·) rfl (wt_apply W cc (idx 1))

/-- Region 1 is entered with the inverse square roots of the launched adjacency matrix's row sums. -/
theorem entry_d (m : (ℓ : Loc nD τ sig) → Buf (Elt Ideal) ℓ) (ρ : Dev nD → PrngReg) (c : Dev nD) :
    W2 (F := Ideal) m ρ c (Proc.devRef .tc main_v0_0)
      = fun idx => Cert.GcnSpec.dinv (m ((c.tc : Thread nD τ).loc main_arg0)) (idx 0) :=
  (W2_main_v0_0 m ρ c).trans (Cert.KernelIdeal.Val0.d_final (V0 m ρ) c)

/-- Region 1 is entered with the launched features scaled row by row. -/
theorem entry_dh (m : (ℓ : Loc nD τ sig) → Buf (Elt Ideal) ℓ) (ρ : Dev nD → PrngReg) (c : Dev nD) :
    W2 (F := Ideal) m ρ c (Proc.devRef .tc main_v0_1)
      = fun idx => Cert.GcnSpec.dinv (m ((c.tc : Thread nD τ).loc main_arg0)) (idx 0) * m ((c.tc : Thread nD τ).loc main_arg1) idx :=
  (W2_main_v0_1 m ρ c).trans (Cert.KernelIdeal.Val0.dh_final (V0 m ρ) c)

/-- THE PROGRAM'S RESULT: after region 1 the result array holds the layer of the four arrays as launched. -/
theorem result_eq_G (m : (ℓ : Loc nD τ sig) → Buf (Elt Ideal) ℓ) (ρ : Dev nD → PrngReg) (c : Dev nD) :
    W3 (F := Ideal) m ρ c (Proc.devRef .tc main_v3)
      = Cert.GcnSpec.G (m ((c.tc : Thread nD τ).loc main_arg0)) (m ((c.tc : Thread nD τ).loc main_arg1))
          (m ((c.tc : Thread nD τ).loc main_arg2)) (m ((c.tc : Thread nD τ).loc main_arg3)) := by
  have hg := W2_main_arg0 m ρ c
  have hh := W2_main_arg1 m ρ c
  have hd := entry_d m ρ c
  have hdh := entry_dh m ρ c
  have hwt := W2_main_v1 m ρ c
  have hb := W2_main_v2 m ρ c
  refine (W3_arr m ρ c 6).trans ?_
  refine (Cert.KernelIdeal.Val1.out_final_of (V2 m ρ) c
      (m ((c.tc : Thread nD τ).loc main_arg0)) (m ((c.tc : Thread nD τ).loc main_arg1))
      (fun idx => Cert.GcnSpec.dinv (m ((c.tc : Thread nD τ).loc main_arg0)) (idx 0) * m ((c.tc : Thread nD τ).loc main_arg1) idx)
      (fun idx => Cert.GcnSpec.dinv (m ((c.tc : Thread nD τ).loc main_arg0)) (idx 0))
      (transpose S256x256 [1, 0] (m ((c.tc : Thread nD τ).loc main_arg2)) transposes_S256x256_S256x256_1_0)
      (shapeCast S1x256 (m ((c.tc : Thread nD τ).loc main_arg3)) shapeCasts_S256_S1x256)
      hg hh hd hdh hwt hb).trans ?_
  exact layer_eq (m ((c.tc : Thread nD τ).loc main_arg0)) (m ((c.tc : Thread nD τ).loc main_arg1))
    (m ((c.tc : Thread nD τ).loc main_arg2)) (m ((c.tc : Thread nD τ).loc main_arg3))
    (fun idx => Cert.GcnSpec.dinv (m ((c.tc : Thread nD τ).loc main_arg0)) (idx 0))
    (fun idx => Cert.GcnSpec.dinv (m ((c.tc : Thread nD τ).loc main_arg0)) (idx 0) * m ((c.tc : Thread nD τ).loc main_arg1) idx)
    (transpose S256x256 [1, 0] (m ((c.tc : Thread nD τ).loc main_arg2)) transposes_S256x256_S256x256_1_0)
    (shapeCast S1x256 (m ((c.tc : Thread nD τ).loc main_arg3)) shapeCasts_S256_S1x256)
    rfl rfl rfl rfl

end Cert.KernelIdeal.Chain

end
-- ==== Proof.Claims.lean ====
/-
  The five claims, each from the runs proved beside it.

  Both kernel programs run as three segments — a pipelined region, two host operations, a second region — and end with
  every unscoped buffer at the last boundary's contents; an argument of the main function is written by no region and by
  no host operation, so it ends as launched. The host program's run states its result and its unchanged arguments
  together. At the ideal values the kernel program's result array and the host program's result are one function of the
  arguments, the normalised graph convolution followed by the linear layer and the rectifier: the kernel side by the chain
  through its two regions, the host side by its operations read index by index, where the precondition makes every row's
  degree a positive real, so that the power −1/2 there is the reciprocal square root here.
-/
import proofs.«151426_j2224793059943_2_alg».proof.Defs
import proofs.«151426_j2224793059943_2_alg».proof.Proof.Gen.Kernel
import proofs.«151426_j2224793059943_2_alg».proof.Proof.Gen.KernelIdeal
import proofs.«151426_j2224793059943_2_alg».proof.Proof.Gen.ReferenceIdeal
import proofs.«151426_j2224793059943_2_alg».proof.Proof.Gen.ReferenceIdeal.Run
import proofs.«151426_j2224793059943_2_alg».proof.Proof.Gen.ReferenceIdeal.Read
import proofs.«151426_j2224793059943_2_alg».proof.Proof.Gen.Pre_finite_inputs
import proofs.«151426_j2224793059943_2_alg».proof.Proof.Spec
import proofs.«151426_j2224793059943_2_alg».proof.Proof.RefPre
import proofs.«151426_j2224793059943_2_alg».proof.Proof.RefValue
import proofs.«151426_j2224793059943_2_alg».proof.Proof.KIRun
import proofs.«151426_j2224793059943_2_alg».proof.Proof.KRun
import proofs.«151426_j2224793059943_2_alg».proof.Proof.KIArgs
import proofs.«151426_j2224793059943_2_alg».proof.Proof.KArgs
import proofs.«151426_j2224793059943_2_alg».proof.Proof.KChain

noncomputable section

namespace Cert.Proof.GcnClaims

open Idealize.ShloMosaic Idealize.ShloMosaic.TcCoe Idealize.SL.Sem

/-- The word-level kernel program runs and leaves its four arguments as launched: its run ends with every unscoped
    buffer at the last boundary's contents, and no region and no host operation writes an argument. -/
theorem frame_k : Cert.frame_Kernel := fun m ρ _ =>
  (θ_run (Cert.Kernel.defs (F := Bits)) _ _).mono (fun r h c =>
    ⟨(h c _ (Cert.Kernel.Fr.mem_uc Cert.Kernel.main_arg0 (by decide))).trans (Cert.Kernel.Fr.W3_main_arg0 m ρ c),
     (h c _ (Cert.Kernel.Fr.mem_uc Cert.Kernel.main_arg1 (by decide))).trans (Cert.Kernel.Fr.W3_main_arg1 m ρ c),
     (h c _ (Cert.Kernel.Fr.mem_uc Cert.Kernel.main_arg2 (by decide))).trans (Cert.Kernel.Fr.W3_main_arg2 m ρ c),
     (h c _ (Cert.Kernel.Fr.mem_uc Cert.Kernel.main_arg3 (by decide))).trans (Cert.Kernel.Fr.W3_main_arg3 m ρ c)⟩)
    (Cert.Kernel.Fr.run_main (F := Bits) m ρ)

/-- The same of the idealized kernel program, at the ideal values. -/
theorem frame_ki : Cert.frame_KernelIdeal := fun m ρ _ =>
  (θ_run (Cert.KernelIdeal.defs (F := Ideal)) _ _).mono (fun r h c =>
    ⟨(h c _ (Cert.KernelIdeal.Fr.mem_uc Cert.KernelIdeal.main_arg0 (by decide))).trans (Cert.KernelIdeal.Fr.W3_main_arg0 m ρ c),
     (h c _ (Cert.KernelIdeal.Fr.mem_uc Cert.KernelIdeal.main_arg1 (by decide))).trans (Cert.KernelIdeal.Fr.W3_main_arg1 m ρ c),
     (h c _ (Cert.KernelIdeal.Fr.mem_uc Cert.KernelIdeal.main_arg2 (by decide))).trans (Cert.KernelIdeal.Fr.W3_main_arg2 m ρ c),
     (h c _ (Cert.KernelIdeal.Fr.mem_uc Cert.KernelIdeal.main_arg3 (by decide))).trans (Cert.KernelIdeal.Fr.W3_main_arg3 m ρ c)⟩)
    (Cert.KernelIdeal.Fr.run_main (F := Ideal) m ρ)

/-- The host program runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the one function of the arguments: the kernel program's result array holds
    it by the chain through its two regions, the host program's by its operations read index by index — there the
    precondition gives every row a positive real degree, where the power −1/2 is the reciprocal square root. -/
theorem algebraic : Cert.algebraic_KernelIdeal_ReferenceIdeal := by
  intro m ρ m' ρ' hpre hagree
  refine ⟨fun c => Cert.GcnSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono (fun r h c =>
      ⟨(h c _ (Cert.KernelIdeal.Fr.mem_uc Cert.KernelIdeal.main_v3 (by decide))).trans (Cert.KernelIdeal.Chain.result_eq_G m ρ c),
       (h c _ (Cert.KernelIdeal.Fr.mem_uc Cert.KernelIdeal.main_arg0 (by decide))).trans (Cert.KernelIdeal.Fr.W3_main_arg0 m ρ c),
       (h c _ (Cert.KernelIdeal.Fr.mem_uc Cert.KernelIdeal.main_arg1 (by decide))).trans (Cert.KernelIdeal.Fr.W3_main_arg1 m ρ c),
       (h c _ (Cert.KernelIdeal.Fr.mem_uc Cert.KernelIdeal.main_arg2 (by decide))).trans (Cert.KernelIdeal.Fr.W3_main_arg2 m ρ c),
       (h c _ (Cert.KernelIdeal.Fr.mem_uc Cert.KernelIdeal.main_arg3 (by decide))).trans (Cert.KernelIdeal.Fr.W3_main_arg3 m ρ c)⟩)
      (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2.1, (hagree c).2.2.1, (hagree c).2.2.2]
    exact Cert.RefSide.ref_eq_G _ _ _ _ (Cert.RefSide.pre_facts _ _ _ _ (hpre c))

end Cert.Proof.GcnClaims

end
-- ==== Proof.lean ====
/-
  The certificate's claim. The word-level kernel program, its idealization and the host program each run and leave their
  arguments as launched; the idealization rewrote nothing; and at the ideal values the kernel program and the host program
  end with one function of the arguments — max((h + d ∘ (g · (d ∘ h))) · Wᵀ + b, 0), d the inverse square roots of g's row
  sums — under the precondition that every input entry is finite and every row sum of g is positive. The five claims are
  proved in Proof/Claims.lean; here they stand behind the witnesses of the side conditions the programs state.
-/
import proofs.«151426_j2224793059943_2_alg».proof.Defs
import proofs.«151426_j2224793059943_2_alg».proof.Proof.Gen.Kernel
import proofs.«151426_j2224793059943_2_alg».proof.Proof.Gen.Kernel.Skeleton
import proofs.«151426_j2224793059943_2_alg».proof.Proof.Gen.Kernel.Launch
import proofs.«151426_j2224793059943_2_alg».proof.Proof.Gen.Kernel.Regions
import proofs.«151426_j2224793059943_2_alg».proof.Proof.Gen.Kernel.Points
import proofs.«151426_j2224793059943_2_alg».proof.Proof.Gen.KernelIdeal
import proofs.«151426_j2224793059943_2_alg».proof.Proof.Gen.KernelIdeal.Skeleton
import proofs.«151426_j2224793059943_2_alg».proof.Proof.Gen.KernelIdeal.Launch
import proofs.«151426_j2224793059943_2_alg».proof.Proof.Gen.KernelIdeal.Regions
import proofs.«151426_j2224793059943_2_alg».proof.Proof.Gen.KernelIdeal.Points
import proofs.«151426_j2224793059943_2_alg».proof.Proof.Gen.ReferenceIdeal
import proofs.«151426_j2224793059943_2_alg».proof.Proof.Gen.ReferenceIdeal.Run
import proofs.«151426_j2224793059943_2_alg».proof.Proof.Gen.ReferenceIdeal.Read
import proofs.«151426_j2224793059943_2_alg».proof.Proof.Gen.Pre_finite_inputs
import proofs.«151426_j2224793059943_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
